-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S1x8192x8192 : S_.BroadcastsInDim S1x8192x8192 (![] : Fin 0 → Fin S1x8192x8192.rank)
  reducesTo_S1x8192x8192_S_d0_1_2 : S1x8192x8192.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S1x8192x8192 .f32) (main_arg1 : FVec F S1x8192x256 .f32) (main_arg2 : FVec F S256x256 .f32) (main_arg3 : FVec F S256 .f32) (main_arg4 : FVec F S512x256 .f32) (main_arg5 : FVec F S256 .f32) : IVec S_ 1 :=
  let main_v0 : FVec F S1x8192x8192 .f32 := Host.absf main_arg0
  let main_cst : FVec F S_ .f32 := constant S_ .f32 0x7F800000#32
  let main_v1 : FVec F S1x8192x8192 .f32 := broadcastInDim S1x8192x8192 ![] bcast_S_S1x8192x8192 main_cst
  let main_v2 : IVec S1x8192x8192 1 := cmpf .olt main_v0 main_v1
  let main_c : IVec S_ 1 := constantI S_ 1 1#1
  let main_v3 : IVec S_ 1 := (fun x v => Host.reduce IntOp.andi x v reducesTo_S1x8192x8192_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S8192x8192 : Shape := ⟨2, ![8192, 8192]⟩
abbrev S8192x256 : Shape := ⟨2, ![8192, 256]⟩
abbrev S1x256 : Shape := ⟨2, ![1, 256]⟩
abbrev S2048x256 : Shape := ⟨2, ![2048, 256]⟩
abbrev S2048x512 : Shape := ⟨2, ![2048, 512]⟩
abbrev S2048x128 : Shape := ⟨2, ![2048, 128]⟩
abbrev S2048 : Shape := ⟨1, ![2048]⟩
abbrev S2048x1 : Shape := ⟨2, ![2048, 1]⟩
abbrev S_ : Shape := ⟨0, ![]⟩

abbrev nBuf : Space → Nat
  | .hbm => 23
  | .vmem => 18
  | .smem => 0
  | _ => 0

abbrev bufTy : (tb : Table) → Fin (tcTables nBuf tb) → BufTy
  | .hbm, ⟨0, _⟩ => ⟨S1x8192x8192, .f32⟩
  | .hbm, ⟨1, _⟩ => ⟨S1x8192x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S8192x8192, .f32⟩
  | .hbm, ⟨7, _⟩ => ⟨S8192x256, .f32⟩
  | .hbm, ⟨8, _⟩ => ⟨S1x256, .f32⟩
  | .hbm, ⟨9, _⟩ => ⟨S1x256, .f32⟩
  | .hbm, ⟨10, _⟩ => ⟨S256x256, .f32⟩
  | .hbm, ⟨11, _⟩ => ⟨S256x256, .f32⟩
  | .hbm, ⟨12, _⟩ => ⟨S8192x256, .bf16⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x256, .f32⟩
  | .hbm, ⟨21, _⟩ => ⟨S8192x256, .f32⟩
  | .hbm, ⟨22, _⟩ => ⟨S1x8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256, .bf16⟩
  | .local _ .vmem, ⟨5, _⟩ => ⟨S2048x256, .bf16⟩
  | .local _ .vmem, ⟨6, _⟩ => ⟨S2048x512, .f32⟩
  | .local _ .vmem, ⟨7, _⟩ => ⟨S2048x512, .f32⟩
  | .local _ .vmem, ⟨8, _⟩ => ⟨S8192x256, .bf16⟩
  | .local _ .vmem, ⟨9, _⟩ => ⟨S2048x256, .f32⟩
  | .local _ .vmem, ⟨10, _⟩ => ⟨S2048x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x128, .f32⟩
  | _, _ => ⟨S1x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def k1_mult1 (i : grid1.Coords) : BitVec 32 :=
  let arg1 : BitVec 32 := BitVec.ofNat 32 (i 1).val
  let c512_i32 : BitVec 32 := 512#32
  let v6 : BitVec 32 := Scalar.muli arg1 c512_i32
  v6
def k1_off1 (i : grid1.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_2 : Index := 0#32
  ![v8.toNat, 0]
def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_12 : BitVec 32 := 0#32
  let v28 : BitVec 1 := Scalar.cmpi .ne v27 c0_i32_12
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  shapeCasts_S1x8192x8192_S8192x8192 : S1x8192x8192.ShapeCasts S8192x8192
  shapeCasts_S1x8192x256_S8192x256 : S1x8192x256.ShapeCasts S8192x256
  shapeCasts_S256_S1x256 : S256.ShapeCasts S1x256
  slices_S512x256_S256x256_0_0 : S512x256.Slices ![0, 0] S256x256
  slices_S512x256_S256x256_256_0 : S512x256.Slices ![256, 0] S256x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  h_S512x256 : 0 < S512x256.numel
  shapeCasts_S512x256_S512x256 : S512x256.ShapeCasts S512x256
  reduces_S2048x512_S2048 : S2048x512.Reduces [1] S2048
  shapeCasts_S2048_S2048x1 : S2048.ShapeCasts S2048x1
  shapeCasts_S2048x1_S2048x1 : S2048x1.ShapeCasts S2048x1
  broadcasts_S2048x1_S2048x128 : S2048x1.Broadcasts S2048x128
  inb_S2048x128_S2048x1_0_0 : ∀ a, (![0, 0] : Fin 2 → Nat) a + S2048x1.size a ≤ S2048x128.size a
  h_S2048x1 : 0 < S2048x1.numel
  broadcasts_S2048x1_S2048x256 : S2048x1.Broadcasts S2048x256
  shapeCasts_S256x256_S256x256 : S256x256.ShapeCasts S256x256
  reducesTo_S8192x256_S_d0_1 : S8192x256.ReducesTo [0, 1] S_
  h_S_ : 0 < S_.numel
  bcast_S_S8192x256 : S_.BroadcastsInDim S8192x256 (![] : Fin 0 → Fin S8192x256.rank)
  bcast_S8192x256_S1x8192x256_1_2 : S8192x256.BroadcastsInDim S1x8192x256 (![1, 2] : Fin 2 → Fin S1x8192x256.rank)
  dot_S2048x256_S256x256_S2048x256_1_0_0_1_n_n_wf : DotDims.WF S2048x256 S256x256 S2048x256 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .bf16 = 32 ∨ (Rect.block (s := S8192x256) S2048x256.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x8192.size a
  hwx1_0 : ∀ i : grid1.Coords, EltTy.bits .f32 = 32 ∨ (Rect.block (s := S8192x8192) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x256.size a
  hwx1_2 : ∀ i : grid1.Coords, EltTy.bits .f32 = 32 ∨ (Rect.block (s := S8192x256) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S8192x256.size a
  hwx1_6 : ∀ i : grid1.Coords, EltTy.bits .f32 = 32 ∨ (Rect.block (s := S8192x256) S2048x256.size (cc1_transform_6 i) (hinb1_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S1x8192x8192 : Shape := ⟨3, ![1, 8192, 8192]⟩
abbrev S1x8192x256 : Shape := ⟨3, ![1, 8192, 256]⟩
abbrev S256x256 : Shape := ⟨2, ![256, 256]⟩
abbrev S256 : Shape := ⟨1, ![256]⟩
abbrev S512x256 : Shape := ⟨2, ![512, 256]⟩
abbrev S1x1x256 : Shape := ⟨3, ![1, 1, 256]⟩
abbrev S_ : Shape := ⟨0, ![]⟩
abbrev S1x8192 : Shape := ⟨2, ![1, 8192]⟩
abbrev S1x8192x1 : Shape := ⟨3, ![1, 8192, 1]⟩
abbrev S1x8192x512 : Shape := ⟨3, ![1, 8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S1x8192x8192, .f32⟩
  | .hbm, ⟨1, _⟩ => ⟨S1x8192x256, .f32⟩
  | .hbm, ⟨2, _⟩ => ⟨S256x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S1x8192x256, .f32⟩
  | .hbm, ⟨7, _⟩ => ⟨S1x1x256, .f32⟩
  | .hbm, ⟨8, _⟩ => ⟨S1x8192x256, .f32⟩
  | .hbm, ⟨9, _⟩ => ⟨S1x8192x256, .f32⟩
  | .hbm, ⟨10, _⟩ => ⟨S_, .f32⟩
  | .hbm, ⟨11, _⟩ => ⟨S1x8192x256, .f32⟩
  | .hbm, ⟨12, _⟩ => ⟨S1x8192x256, .f32⟩
  | .hbm, ⟨13, _⟩ => ⟨S1x8192x256, .f32⟩
  | .hbm, ⟨14, _⟩ => ⟨S_, .f32⟩
  | .hbm, ⟨15, _⟩ => ⟨S1x8192, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x256, .f32⟩
  | .hbm, ⟨21, _⟩ => ⟨S1x8192x256, .f32⟩
  | .hbm, ⟨22, _⟩ => ⟨S1x8192x512, .f32⟩
  | .hbm, ⟨23, _⟩ => ⟨S1x8192x256, .f32⟩
  | .hbm, ⟨24, _⟩ => ⟨S1x1x256, .f32⟩
  | .hbm, ⟨25, _⟩ => ⟨S1x8192x256, .f32⟩
  | .hbm, ⟨26, _⟩ => ⟨S1x8192x256, .f32⟩
  | .hbm, ⟨27, _⟩ => ⟨S_, .f32⟩
  | .hbm, ⟨28, _⟩ => ⟨S1x8192x256, .f32⟩
  | .hbm, ⟨29, _⟩ => ⟨S1x8192x256, .f32⟩
  | .hbm, ⟨30, _⟩ => ⟨S_, .f32⟩
  | .hbm, ⟨31, _⟩ => ⟨S1x8192x256, .f32⟩
  | .hbm, ⟨32, _⟩ => ⟨S1x8192x256, .f32⟩
  | .hbm, ⟨33, _⟩ => ⟨S1x8192x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1x8192x256, .f32⟩
  | .hbm, ⟨40, _⟩ => ⟨S1x8192x256, .f32⟩
  | _, _ => ⟨S1x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S1x8192x256_0_1_2 : S1x1x256.BroadcastsInDim S1x8192x256 (![0, 1, 2] : Fin 3 → Fin S1x8192x256.rank)
  bcast_S_S1x8192x256 : S_.BroadcastsInDim S1x8192x256 (![] : Fin 0 → Fin S1x8192x256.rank)
  reducesTo_S1x8192x8192_S1x8192_d2 : S1x8192x8192.ReducesTo [2] S1x8192
  h_S_ : 0 < S_.numel
  bcast_S1x8192_S1x8192x1_0_1 : S1x8192.BroadcastsInDim S1x8192x1 (![0, 1] : Fin 2 → Fin S1x8192x1.rank)
  bcast_S_S1x8192x1 : S_.BroadcastsInDim S1x8192x1 (![] : Fin 0 → Fin S1x8192x1.rank)
  bcast_S1x8192x1_S1x8192x256_0_1_2 : S1x8192x1.BroadcastsInDim S1x8192x256 (![0, 1, 2] : Fin 3 → Fin S1x8192x256.rank)
  concatenates_S1x8192x256_S1x8192x256_S1x8192x512_d2 : Shape.Concatenates [S1x8192x256, S1x8192x256] S1x8192x512 2
  reducesTo_S1x8192x256_S_d0_1_2 : S1x8192x256.ReducesTo [0, 1, 2] S_
  dot_S1x8192x256_S256x256_S1x8192x256_2_0_01_1_n_n_wf : DotDims.WF S1x8192x256 S256x256 S1x8192x256 [2] [0] [0, 1] [1] [] []
  dot_S1x8192x8192_S1x8192x256_S1x8192x256_2_1_1_2_0_0_wf : DotDims.WF S1x8192x8192 S1x8192x256 S1x8192x256 [2] [1] [1] [2] [0] [0]
  dot_S1x8192x512_S512x256_S1x8192x256_2_0_01_1_n_n_wf : DotDims.WF S1x8192x512 S512x256 S1x8192x256 [2] [0] [0, 1] [1] [] []

variable [Facts₀]

def dot_S1x8192x256_S256x256_S1x8192x256_2_0_01_1_n_n : DotDims S1x8192x256 S256x256 S1x8192x256 where
  lhsContracting := [2]
  rhsContracting := [0]
  lhsNonContracting := [0, 1]
  rhsNonContracting := [1]
  lhsBatch := []
  rhsBatch := []
  wf := dot_S1x8192x256_S256x256_S1x8192x256_2_0_01_1_n_n_wf
def dot_S1x8192x8192_S1x8192x256_S1x8192x256_2_1_1_2_0_0 : DotDims S1x8192x8192 S1x8192x256 S1x8192x256 where
  lhsContracting := [2]
  rhsContracting := [1]
  lhsNonContracting := [1]
  rhsNonContracting := [2]
  lhsBatch := [0]
  rhsBatch := [0]
  wf := dot_S1x8192x8192_S1x8192x256_S1x8192x256_2_1_1_2_0_0_wf
def dot_S1x8192x512_S512x256_S1x8192x256_2_0_01_1_n_n : DotDims S1x8192x512 S512x256 S1x8192x256 where
  lhsContracting := [2]
  rhsContracting := [0]
  lhsNonContracting := [0, 1]
  rhsNonContracting := [1]
  lhsBatch := []
  rhsBatch := []
  wf := dot_S1x8192x512_S512x256_S1x8192x256_2_0_01_1_n_n_wf

class Facts : Prop extends Facts₀ where

variable [Facts]
-- ==== Proof.Outs.lean ====
/-
  What the two kernel bodies leave, as pure functions of what they load (no memory, no program logic).

  Region 0 (one row tile of the hidden layer): the stored block is the generated payload `k0_pay1` of the
  row tile of X, the whole weight matrix and the bias row: relu (x · w + b).

  Region 1 (grid point (i, j): row tile i of A, column block j): the body keeps two running buffers between
  grid points — a [2048, 256] accumulator of A-block · h-slice products and a [2048, 128] accumulator whose
  every lane holds the running row sum of A — both reset to zero at j = 0, and at the last column block
  j = 15 stores the output tile: relu (x · w1 + (acc / (rowsum + eps)) · w2 + b) + eps.
-/
import proofs.«109917_j84868553769261_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- Rows [512·j, 512·j + 512) of the resident hidden-layer array: the slice the body loads at column block j. -/
def hsl (i : grid1.Coords) (x1 : Vec F S8192x256 .bf16) : Vec F S512x256 .bf16 :=
  View.ld x1 (Rect.unit (s := S8192x256) (k1_off1 i) S512x256.size (k1_off1_inb i))

/-- The first lane of the row-sum accumulator, as a column. -/
def col0 (s : Vec F S2048x128 .f32) : Vec F S2048x1 .f32 :=
  View.ld s (Rect.unit (s := S2048x128) ![0, 0] S2048x1.size inb_S2048x128_S2048x1_0_0)

/-- The product accumulator after a point: what it held plus (A block) · (h slice). -/
def acc0 (i : grid1.Coords) (x0 : Vec F S2048x512 .f32) (x1 : Vec F S8192x256 .bf16) (s0 : Vec F S2048x256 .f32) :
    Vec F S2048x256 .f32 :=
  k1_pay4 x0 (hsl i x1) s0

/-- The row-sum accumulator after a point: what it held plus the block's row sums in every lane. -/
def acc1 (x0 : Vec F S2048x512 .f32) (s1 : Vec F S2048x128 .f32) : Vec F S2048x128 .f32 :=
  k1_pay5 x0 s1

/-- The output tile stored at the last column block, from the two accumulators as they stand after that
    block's update, the X row tile, the two halves of the dense weights and the bias row. -/
def fin6 (s0 : Vec F S2048x256 .f32) (s1 : Vec F S2048x128 .f32) (x2 : Vec F S2048x256 .f32)
    (x3 x4 : Vec F S256x256 .f32) (x5 : Vec F S1x256 .f32) : Vec F S2048x256 .f32 :=
  k1_pay6 (col0 s1) s0 x2 x3 x4 x5

/-- The hidden-layer tile region 0 stores. -/
def out0 (x0 : Vec F S2048x256 .f32) (x1 : Vec F S256x256 .f32) (x2 : Vec F S1x256 .f32) : Vec F S2048x256 .bf16 :=
  k0_pay1 x0 x1 x2

end Cert.KernelIdeal.Hand

end
-- ==== Proof.Data.lean ====
/-
  The proof data of the two pipelines, at a parameter V: the TensorCore's buffer contents when a region is entered.

  Region 0: every input window's staging buffer holds its block of the array V gives it; the output tile after
  the body is `out0` of the three input blocks; nothing is kept between points.

  Region 1: the same for its six input windows; between grid points the two scratch buffers hold the running
  pair `scr1` — from zero at the first column block of each row tile (t ≡ 0 mod 16), then updated by `acc0` /
  `acc1` with the point's A block and the resident hidden-layer array — which the region invariant `Phi1`
  names after every point; the output tile, stored at t ≡ 15 mod 16, is `fin6` of that pair and of the X tile,
  the two weight halves and the bias row.
-/
import proofs.«109917_j84868553769261_2_alg».proof.Proof.Gen.KernelIdeal.Launch
import proofs.«109917_j84868553769261_2_alg».proof.Proof.Gen.KernelIdeal.Skeleton
import proofs.«109917_j84868553769261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: the arrays as the region finds them; after the body each input's buffer at its block and
    the output's at `out0` of the input blocks; the class's invariant (the scoped rest and the generator register,
    untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- One point's update of the running pair: the product accumulator and the row-sum accumulator. -/
def step1 (c : Dev nD) (t : Fin cfg1.N) (s : Vec F S2048x256 .f32 × Vec F S2048x128 .f32) :
    Vec F S2048x256 .f32 × Vec F S2048x128 .f32 :=
  (acc0 (grid1.coords t) (iblk1 V c 0 t) (iblk1 V c 1 t) s.1, acc1 (iblk1 V c 0 t) s.2)

/-- What the two scratch buffers hold after the body at position `n`: from zero at the first column block of a row
    tile (n ≡ 0 mod 16), else from what the point before left. -/
def scr1 (c : Dev nD) : (n : ℕ) → n < cfg1.N → Vec F S2048x256 .f32 × Vec F S2048x128 .f32
  | 0, hn => step1 V c ⟨0, hn⟩ (k1_pay1 (F := F), k1_pay2 (F := F))
  | n + 1, hn => step1 V c ⟨n + 1, hn⟩
      (if (n + 1) % 16 = 0 then (k1_pay1 (F := F), k1_pay2 (F := F)) else scr1 c n (Nat.lt_of_succ_lt hn))

/-- At the first column block of a row tile the pair starts from zero. -/
theorem scr1_first (c : Dev nD) (t : Fin cfg1.N) (h : t.val % 16 = 0) :
    scr1 V c t.val t.isLt = step1 V c t (k1_pay1 (F := F), k1_pay2 (F := F)) := by
  obtain ⟨n, hn⟩ := t
  cases n with
  | zero => rfl
  | succ n => exact congrArg (step1 V c ⟨n + 1, hn⟩) (if_pos h)

/-- At any other column block it continues from the point before. -/
theorem scr1_next (c : Dev nD) (t : Fin cfg1.N) (h : ¬t.val % 16 = 0) :
    scr1 V c t.val t.isLt = step1 V c t (scr1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- The output tile the body stores at the last column block of a row tile (at the other points the window is idle
    and this term is consulted by nothing). -/
def out1 (c : Dev nD) (t : Fin cfg1.N) : Vec F S2048x256 .f32 :=
  fin6 (scr1 V c t.val t.isLt).1 (scr1 V c t.val t.isLt).2 (iblk1 V c 2 t) (iblk1 V c 3 t) (iblk1 V c 4 t) (iblk1 V c 5 t)

/-- The scratch operands: whole scoped buffers of the kernel's own. -/
abbrev scM0 : Memref sig .tc .vmem S2048x256 .f32 := Memref.whole cc1_scratch0
abbrev scM1 : Memref sig .tc .vmem S2048x128 .f32 := Memref.whole cc1_scratch1

/-- The scoped buffers region 1 neither stages through nor uses: region 0's staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class's invariant with the two scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The region invariant before position `n`: before the first point the class's (both scratch buffers at anything);
    afterwards region 0's staging buffers at anything, the two scratch buffers at the running pair the point before
    left, and the generator register at some state. -/
def Phi1 (c : Dev nD) : (n : ℕ) → n ≤ cfg1.N → sProp 𝕄
  | 0, _ => Pipeline.ΦA spec1 c
  | n + 1, hn => iprop(rest1 (F := F) c ∗ owns (c : Thread nD τ) scM0 fullShare (scr1 V c n hn).1 ∗ owns (c : Thread nD τ) scM1 fullShare (scr1 V c n hn).2 ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(rest1 (F := F) c ∗ owns (c : Thread nD τ) scM0 fullShare (scr1 V c n hn).1 ∗ owns (c : Thread nD τ) scM1 fullShare (scr1 V c n hn).2 ∗ (∃ r, prngReg c r)) := rfl
theorem Phi1_pos (c : Dev nD) (n : ℕ) (h : n ≤ cfg1.N) (hz : n ≠ 0) :
    Phi1 V c n h = iprop(rest1 (F := F) c ∗ owns (c : Thread nD τ) scM0 fullShare (scr1 V c (n - 1) (by omega)).1 ∗ owns (c : Thread nD τ) scM1 fullShare (scr1 V c (n - 1) (by omega)).2 ∗ (∃ r, prngReg c r)) := by
  cases n with
  | zero => exact absurd rfl hz
  | succ n => rfl

/-- Region 1's proof data. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end Regions

end Cert.KernelIdeal.Hand

end
-- ==== Proof.Body0.lean ====
/-
  The body of region 0 on whole buffers: it loads the row tile of X, the weight matrix and the bias row through
  the whole-buffer rectangles, and stores one payload through the whole-buffer rectangle of its output. A load
  through the whole-shape rectangle at zero offsets reads the contents, and one store through it leaves its
  payload, so the output buffer ends at `out0` of the three inputs.
-/
import proofs.«109917_j84868553769261_2_alg».proof.Proof.Gen.KernelIdeal.Launch
import proofs.«109917_j84868553769261_2_alg».proof.Proof.Gen.KernelIdeal.Skeleton
import proofs.«109917_j84868553769261_2_alg».proof.Proof.Gen.KernelIdeal.Points
import proofs.«109917_j84868553769261_2_alg».proof.Proof.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-! ## Whole-buffer accesses

Every access of these bodies but two goes through the whole-shape rectangle at zero offsets of the buffer's own sizes.
A load through it reads the contents; a store through it, made last, leaves its payload whatever was stored before. -/

section Whole

variable {Val : EltTy → Type} [∀ e, Nonempty (Val e)] {sg : RefSig} {κ : Kind} {sp : Space} {S : Shape} {e : EltTy}

/-- A load through the whole-shape rectangle at zero offsets reads the buffer's contents. -/
theorem readAt_unit_zero (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- After a store through the whole-shape rectangle at zero offsets, made last, the buffer reads as that store's payload. -/
theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Whole

/-- The zero offsets of a rank-2 access, as the constant function. -/
theorem off2_zero : (![0, 0] : Fin 2 → ℕ) = fun _ => 0 := by funext a; fin_cases a <;> rfl

set_option maxHeartbeats 1000000 in
/-- The body of region 0 on whole buffers, the inputs' at contents `x0 x1 x2` and the output's at anything, runs to the
    continuation holding the inputs' as they were and the output's at `out0 x0 x1 x2`. -/
theorem run0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S2048x256 .bf16) (harg4 : arg4.IsWhole) (x0 : Vec F S2048x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads as the store's payload,
  refine (read_writes_cons_unit_zero _ _ off2_zero inb_S2048x256_S2048x256_0_0 _ _).trans ?_
  -- and each whole-buffer load read the contents
  rw [readAt_unit_zero arg1.view f0 off2_zero inb_S2048x256_S2048x256_0_0,
    readAt_unit_zero arg2.view f1 off2_zero inb_S256x256_S256x256_0_0,
    readAt_unit_zero arg3.view f2 off2_zero inb_S1x256_S1x256_0_0]
  rfl

end Cert.KernelIdeal.Hand

end
-- ==== Proof.Body1.lean ====
/-
  Region 1's kernel body on whole staging buffers, in its three control cases over the column-block coordinate j:
  j = 0 (the two running buffers are zeroed first), 0 < j < 15 (accumulate only), j = 15 (accumulate, then the
  output tile is stored). In every case the product accumulator ends at `acc0` and the row-sum accumulator at
  `acc1` of what they started from; the inputs are left as found; the output tile is untouched except at j = 15,
  where it ends at `fin6` of the updated accumulators.

  Every store of the body goes through the whole-shape rectangle of its buffer, so a buffer reads as the payload
  of the last store made into it, and a load made after a store reads that payload at the load's rectangle.
-/
import proofs.«109917_j84868553769261_2_alg».proof.Proof.Gen.KernelIdeal.Launch
import proofs.«109917_j84868553769261_2_alg».proof.Proof.Gen.KernelIdeal.Skeleton
import proofs.«109917_j84868553769261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«109917_j84868553769261_2_alg».proof.Proof.Outs
import proofs.«109917_j84868553769261_2_alg».proof.Proof.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- j = 0: the body's first conditional, from the grid coordinates. -/
abbrev cond1_0 (i : grid1.Coords) : Prop := (Scalar.cmpi .ne (Scalar.extui (Scalar.cmpi .eq (BitVec.ofNat 32 (i 1).val) 0#32)) 0#32) = 1#1
/-- j = 15: the body's second conditional. -/
abbrev cond1_1 (i : grid1.Coords) : Prop := k1_cond2 i = 1#1

/-- The first conditional holds exactly at the first column block of each row tile. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second holds exactly at the last. -/
theorem hcond1_1 : ∀ t : Fin cfg1.N, cond1_1 (grid1.coords t) ↔ t.val % 16 = 15 :=
  (by decide +kernel : ∀ t : Fin grid1.N, cond1_1 (grid1.coords t) ↔ t.val % 16 = 15)

section Sub

variable {Val : EltTy → Type} [∀ e, Nonempty (Val e)] {sg : RefSig} {κ : Kind} {sp : Space} {S : Shape} {e : EltTy}

/-- A load through any rectangle of a buffer whose one store so far went through the whole-shape rectangle at zero
    offsets reads that store's payload at the rectangle's indices. -/
theorem readCov_unit_zero_ld (v : View sg κ sp S e) {off : Fin S.rank → ℕ} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld v _ r (fun y => ⟨_, List.mem_singleton_self _, View.mem_set_unit_zero h inb y⟩),
    View.canon_unit_zero h inb w]

end Sub

set_option maxHeartbeats 1000000 in
/-- First column block: both accumulators start from zero. -/
theorem run1_A (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : cond1_0 i) (hc1 : ¬cond1_1 i) (d8 : Vec F S2048x256 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (acc0 i x0 x1 (k1_pay1 (F := F))) ∗ owns (c : Thread nD τ) arg10 fullShare (acc1 x0 (k1_pay2 (F := F)))) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%d9, %f9, -, H9⟩, ⟨%d10, %f10, -, H10⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists _; isplitr
    swap; · iexact H9
    ipureintro
    sl_unfold_run_names
    -- the accumulate store, made last, covers the product accumulator; its load before that store read the zero
    -- fill's payload, the one store made until then
    refine (read_writes_cons_unit_zero _ _ off2_zero inb_S2048x256_S2048x256_0_0 _ _).trans ?_
    rw [readAt_unit_zero arg2.view f0 off2_zero inb_S2048x512_S2048x512_0_0,
      View.readCov_unit_zero (Val := Elt F) (e := .f32) arg9.view off2_zero inb_S2048x256_S2048x256_0_0 (k1_pay1 (F := F))]
    rfl
  iexists _; isplitr
  swap; · iexact H10
  ipureintro
  sl_unfold_run_names
  -- likewise the row-sum accumulator
  refine (read_writes_cons_unit_zero _ _ off2_zero inb_S2048x128_S2048x128_0_0 _ _).trans ?_
  rw [readAt_unit_zero arg2.view f0 off2_zero inb_S2048x512_S2048x512_0_0,
    View.readCov_unit_zero (Val := Elt F) (e := .f32) arg10.view off2_zero inb_S2048x128_S2048x128_0_0 (k1_pay2 (F := F))]
  rfl

set_option maxHeartbeats 1000000 in
/-- A middle column block: both accumulators updated from what the block before left. -/
theorem run1_B (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : ¬cond1_0 i) (hc1 : ¬cond1_1 i) (d8 : Vec F S2048x256 .f32) (s0 : Vec F S2048x256 .f32) (s1 : Vec F S2048x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (acc0 i x0 x1 s0) ∗ owns (c : Thread nD τ) arg10 fullShare (acc1 x0 s1)) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  subst hf0; subst hf1; subst hf2; subst hf3; subst hf4; subst hf5; subst hf8; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists _; isplitr
    swap; · iexact H9
    ipureintro
    -- the accumulate store covers the product accumulator, whose loads before it read what it held
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0]
    rfl
  iexists _; isplitr
  swap; · iexact H10
  ipureintro
  -- likewise the row-sum accumulator
  refine (read_writes_cons_unit_zero _ _ off2_zero inb_S2048x128_S2048x128_0_0 _ _).trans ?_
  rw [readAt_unit_zero arg2.view f0 off2_zero inb_S2048x512_S2048x512_0_0,
    readAt_unit_zero arg10.view f10 off2_zero inb_S2048x128_S2048x128_0_0]
  rfl

set_option maxHeartbeats 1000000 in
/-- The last column block: the accumulators updated, then the output tile stored from them. -/
theorem run1_C (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : ¬cond1_0 i) (hc1 : cond1_1 i) (s0 : Vec F S2048x256 .f32) (s1 : Vec F S2048x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin6 (acc0 i x0 x1 s0) (acc1 x0 s1) x2 x3 x4 x5) ∗ owns (c : Thread nD τ) arg9 fullShare (acc0 i x0 x1 s0) ∗ owns (c : Thread nD τ) arg10 fullShare (acc1 x0 s1)) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%f10, %hf10, H10⟩, Hk⟩
  subst hf0; subst hf1; subst hf2; subst hf3; subst hf4; subst hf5; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_run_names
    -- the one store covers the output tile; of its operands, the two accumulators were loaded after this point's
    -- accumulate stores — the row-sum one through its first lane's column, the product one whole — and read those
    -- stores' payloads; every other load read an untouched buffer whole
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0,
      readAt_unit_zero arg10.view f10 off2_zero inb_S2048x128_S2048x128_0_0,
      readAt_unit_zero arg4.view f2 off2_zero inb_S2048x256_S2048x256_0_0,
      readAt_unit_zero arg5.view f3 off2_zero inb_S256x256_S256x256_0_0,
      readAt_unit_zero arg6.view f4 off2_zero inb_S256x256_S256x256_0_0,
      readAt_unit_zero arg7.view f5 off2_zero inb_S1x256_S1x256_0_0,
      readCov_unit_zero_ld (Val := Elt F) (e := .f32) arg10.view off2_zero inb_S2048x128_S2048x128_0_0 _
        (Rect.unit (s := S2048x128) ![0, 0] S2048x1.size inb_S2048x128_S2048x1_0_0),
      View.readCov_unit_zero (Val := Elt F) (e := .f32) arg9.view off2_zero inb_S2048x256_S2048x256_0_0 _]
    rfl
  isplitl [H9]
  · iexists _; isplitr
    swap; · iexact H9
    ipureintro
    sl_unfold_run_names
    -- the accumulate store covers the product accumulator, whose loads before it read what it held
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0]
    rfl
  iexists _; isplitr
  swap; · iexact H10
  ipureintro
  sl_unfold_run_names
  -- likewise the row-sum accumulator
  refine (read_writes_cons_unit_zero _ _ off2_zero inb_S2048x128_S2048x128_0_0 _ _).trans ?_
  rw [readAt_unit_zero arg2.view f0 off2_zero inb_S2048x512_S2048x512_0_0,
    readAt_unit_zero arg10.view f10 off2_zero inb_S2048x128_S2048x128_0_0]
  rfl

end Cert.KernelIdeal.Hand

end
-- ==== Proof.Regs.lean ====
/-
  The two pipelines' body obligations from the kernel bodies' runs, and @main from launch to return: the host
  operations before the first region, region 0, region 1, the host operations after — every weakly fair execution
  terminates, and every unscoped buffer ends at the contents the fold `W4` names: the launch memory, through the
  first host stretch, region 0's output array at what its write-backs leave, region 1's likewise, through the last
  host stretch. The argument arrays are written by nothing on the way.
-/
import proofs.«109917_j84868553769261_2_alg».proof.Proof.Gen.KernelIdeal.Launch
import proofs.«109917_j84868553769261_2_alg».proof.Proof.Gen.KernelIdeal.Skeleton
import proofs.«109917_j84868553769261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Outs
import proofs.«109917_j84868553769261_2_alg».proof.Proof.Gen.KernelIdeal.Regions
import proofs.«109917_j84868553769261_2_alg».proof.Proof.Data
import proofs.«109917_j84868553769261_2_alg».proof.Proof.Body0
import proofs.«109917_j84868553769261_2_alg».proof.Proof.Body1
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## Region 0: the body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## Region 1: where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last column block the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last column block it is live. -/
theorem liveAt1_6 : ∀ t : Fin cfg1.N, cond1_1 (grid1.coords t) → cfg1.idle 6 (grid1.coords t) = false := by decide +kernel

/-! ## Region 1: the body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The closed forms of the two conditionals say which case the point is in; the invariant
    hands the body the two scratch buffers — at anything before the first point, at the running pair the point
    before left afterwards — and takes them back at this point's pair; off the last column block the output window
    is idle and its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
        unfold Dat.leavesExact; rw [liveAt1_0 t], after1_0]
  rw [show (dat1 V c).leavesExact 1 t = owns (c : Thread nD τ) (st1_1 t) fullShare ((dat1 V c).after 1 t) from by
        unfold Dat.leavesExact; rw [liveAt1_1 t], after1_1]
  rw [show (dat1 V c).leavesExact 2 t = owns (c : Thread nD τ) (st1_2 t) fullShare ((dat1 V c).after 2 t) from by
        unfold Dat.leavesExact; rw [liveAt1_2 t], after1_2]
  rw [show (dat1 V c).leavesExact 3 t = owns (c : Thread nD τ) (st1_3 t) fullShare ((dat1 V c).after 3 t) from by
        unfold Dat.leavesExact; rw [liveAt1_3 t], after1_3]
  rw [show (dat1 V c).leavesExact 4 t = owns (c : Thread nD τ) (st1_4 t) fullShare ((dat1 V c).after 4 t) from by
        unfold Dat.leavesExact; rw [liveAt1_4 t], after1_4]
  rw [show (dat1 V c).leavesExact 5 t = owns (c : Thread nD τ) (st1_5 t) fullShare ((dat1 V c).after 5 t) from by
        unfold Dat.leavesExact; rw [liveAt1_5 t], after1_5]
  have hN : t.val < 64 := lt_of_lt_of_eq t.isLt (show cfg1.N = 64 from N_1)
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scr1_first V c t h0]; unfold step1; dsimp only
    by_cases hz : t.val = 0
    · rw [Phi1_castSucc V c t, Phi1_zero V c _ _ hz, PhiA1_eq]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR0 HR1 HR2 HR3 HR4 HR5 HS0 HS1 Hg]
      · isplitl [HR0 HR1 HR2 HR3 HR4 HR5]
        · unfold rest1
          isplitl [HR0]; · iexact HR0
          isplitl [HR1]; · iexact HR1
          isplitl [HR2]; · iexact HR2
          isplitl [HR3]; · iexact HR3
          isplitl [HR4]; · iexact HR4
          iexact HR5
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      unfold out1
      rw [scr1_next V c t h0]; unfold step1; dsimp only
      rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      rw [scr1_next V c t h0]; unfold step1; dsimp only
      rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  unfold rest1
  iintro ⟨⟨HR0, HR1, HR2, HR3, HR4, HR5⟩, HS0, HS1, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

end Regions

end Cert.KernelIdeal.Hand

end
-- ==== Proof.Run.lean ====
/-
  @main from launch to return, as four segments: the host operations before the regions, region 0, region 1, the
  host operations after. Between segments every unscoped buffer of the core is held at the contents a fold names:
  W0 the launch memory; W1 after the first host stretch; W2 with region 0's arrays at what its write-backs leave;
  W3 with region 1's likewise; W4 after the last host stretch. Every weakly fair execution terminates, and the
  final memory holds W4 at every unscoped buffer.
-/
import proofs.«109917_j84868553769261_2_alg».proof.Proof.Gen.KernelIdeal.Launch
import proofs.«109917_j84868553769261_2_alg».proof.Proof.Gen.KernelIdeal.Skeleton
import proofs.«109917_j84868553769261_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Outs
import proofs.«109917_j84868553769261_2_alg».proof.Proof.Regs
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host stretch: the final contents. -/
abbrev W4 (c : Dev nD) : Valuation τ sig (Elt F) := StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer at `W1`, left at `W2`. Its arrays split out of the unscoped buffers
    and put back at the exit contents; the generator register into the class invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; the generator register into the region
    invariant (the class's before the first point) and out of it after the last (the scratch contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hΦ : (pdats m ρ 1 c).Φ (Fin.last _) ⊢ (Pipeline.ΦA spec1 c : sProp 𝕄) := hout1 (V2 m ρ) c
    have hA : (Pipeline.ΦA spec1 c : sProp 𝕄) ⊢ iprop((∃ r, prngReg c r) ∗ Pipeline.ownSems0 (Ix := Unit) (Name := ℕ) (U := Pipeline.UD sig nD τ) (Lvl := ℕ) (Val := Elt F) (τ := τ) (fun k : PEmpty => k.elim) c ∗ Pipeline.scopedRest spec1 c) := by
      rw [Pipeline.ownSems0_none]; unfold Pipeline.ΦA
      iintro ⟨Hr, Hp⟩
      isplitl [Hp]; · iexact Hp
      isplitr; · iempintro
      iexact Hr
    exact hΦ.trans hA
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and the
    final memory holds `W4` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Args.lean ====
/-
  Every argument array ends holding what it held at launch: no host operation writes one, and a region either
  does not touch it or reads it through an input window, which writes nothing back. So the fold that names the
  final contents, read at an argument's buffer, walks back through the four segments to the launch memory.
-/
import proofs.«109917_j84868553769261_2_alg».proof.Proof.Run
import proofs.«109917_j84868553769261_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer the first host stretch does not write holds after it what it held at launch. -/
theorem W1_arg (c : Dev nD) (b : Ref sig .tc) (h : b ∉ hostOps0_W) :
    W1 m ρ c (Proc.devRef .tc b) = m ((c : Thread nD τ).loc b) :=
  (StableHlo.after_of_writes_sub hostOps0 _ hostOps0_writes h).trans rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = m ((c : Thread nD τ).loc main_arg0) := W1_arg m ρ c main_arg0 (by decide)

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_arg m ρ c main_arg1 (by decide)

/-- `main_arg2` is an input window's array of region 0, which reads it and writes nothing back. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) :=
        (W2_arr m ρ c 1).trans (((dat0 (V1 m ρ) c).arrAt_in 1 rfl _).trans (A_eq0 (V1 m ρ) c 1))
    _ = m ((c : Thread nD τ).loc main_arg2) := W1_arg m ρ c main_arg2 (by decide)

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_arg m ρ c main_arg3 (by decide)

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_arg m ρ c main_arg4 (by decide)

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_arg m ρ c main_arg5 (by decide)

end Cert.KernelIdeal.Hand

end
-- ==== Proof.Bits.Outs.lean ====
/-
  What the two kernel bodies leave, as pure functions of what they load (no memory, no program logic).

  Region 0 (one row tile of the hidden layer): the stored block is the generated payload `k0_pay1` of the
  row tile of X, the whole weight matrix and the bias row: relu (x · w + b).

  Region 1 (grid point (i, j): row tile i of A, column block j): the body keeps two running buffers between
  grid points — a [2048, 256] accumulator of A-block · h-slice products and a [2048, 128] accumulator whose
  every lane holds the running row sum of A — both reset to zero at j = 0, and at the last column block
  j = 15 stores the output tile: relu (x · w1 + (acc / (rowsum + eps)) · w2 + b) + eps.
-/
import proofs.«109917_j84868553769261_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- Rows [512·j, 512·j + 512) of the resident hidden-layer array: the slice the body loads at column block j. -/
def hsl (i : grid1.Coords) (x1 : Vec F S8192x256 .bf16) : Vec F S512x256 .bf16 :=
  View.ld x1 (Rect.unit (s := S8192x256) (k1_off1 i) S512x256.size (k1_off1_inb i))

/-- The first lane of the row-sum accumulator, as a column. -/
def col0 (s : Vec F S2048x128 .f32) : Vec F S2048x1 .f32 :=
  View.ld s (Rect.unit (s := S2048x128) ![0, 0] S2048x1.size inb_S2048x128_S2048x1_0_0)

/-- The product accumulator after a point: what it held plus (A block) · (h slice). -/
def acc0 (i : grid1.Coords) (x0 : Vec F S2048x512 .f32) (x1 : Vec F S8192x256 .bf16) (s0 : Vec F S2048x256 .f32) :
    Vec F S2048x256 .f32 :=
  k1_pay4 x0 (hsl i x1) s0

/-- The row-sum accumulator after a point: what it held plus the block's row sums in every lane. -/
def acc1 (x0 : Vec F S2048x512 .f32) (s1 : Vec F S2048x128 .f32) : Vec F S2048x128 .f32 :=
  k1_pay5 x0 s1

/-- The output tile stored at the last column block, from the two accumulators as they stand after that
    block's update, the X row tile, the two halves of the dense weights and the bias row. -/
def fin6 (s0 : Vec F S2048x256 .f32) (s1 : Vec F S2048x128 .f32) (x2 : Vec F S2048x256 .f32)
    (x3 x4 : Vec F S256x256 .f32) (x5 : Vec F S1x256 .f32) : Vec F S2048x256 .f32 :=
  k1_pay6 (col0 s1) s0 x2 x3 x4 x5

/-- The hidden-layer tile region 0 stores. -/
def out0 (x0 : Vec F S2048x256 .f32) (x1 : Vec F S256x256 .f32) (x2 : Vec F S1x256 .f32) : Vec F S2048x256 .bf16 :=
  k0_pay1 x0 x1 x2

end Cert.Kernel.Hand

end
-- ==== Proof.Bits.Data.lean ====
/-
  The proof data of the two pipelines, at a parameter V: the TensorCore's buffer contents when a region is entered.

  Region 0: every input window's staging buffer holds its block of the array V gives it; the output tile after
  the body is `out0` of the three input blocks; nothing is kept between points.

  Region 1: the same for its six input windows; between grid points the two scratch buffers hold the running
  pair `scr1` — from zero at the first column block of each row tile (t ≡ 0 mod 16), then updated by `acc0` /
  `acc1` with the point's A block and the resident hidden-layer array — which the region invariant `Phi1`
  names after every point; the output tile, stored at t ≡ 15 mod 16, is `fin6` of that pair and of the X tile,
  the two weight halves and the bias row.
-/
import proofs.«109917_j84868553769261_2_alg».proof.Proof.Gen.Kernel.Launch
import proofs.«109917_j84868553769261_2_alg».proof.Proof.Gen.Kernel.Skeleton
import proofs.«109917_j84868553769261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Bits.Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Region 0's proof data: the arrays as the region finds them; after the body each input's buffer at its block and
    the output's at `out0` of the input blocks; the class's invariant (the scoped rest and the generator register,
    untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- One point's update of the running pair: the product accumulator and the row-sum accumulator. -/
def step1 (c : Dev nD) (t : Fin cfg1.N) (s : Vec F S2048x256 .f32 × Vec F S2048x128 .f32) :
    Vec F S2048x256 .f32 × Vec F S2048x128 .f32 :=
  (acc0 (grid1.coords t) (iblk1 V c 0 t) (iblk1 V c 1 t) s.1, acc1 (iblk1 V c 0 t) s.2)

/-- What the two scratch buffers hold after the body at position `n`: from zero at the first column block of a row
    tile (n ≡ 0 mod 16), else from what the point before left. -/
def scr1 (c : Dev nD) : (n : ℕ) → n < cfg1.N → Vec F S2048x256 .f32 × Vec F S2048x128 .f32
  | 0, hn => step1 V c ⟨0, hn⟩ (k1_pay1 (F := F), k1_pay2 (F := F))
  | n + 1, hn => step1 V c ⟨n + 1, hn⟩
      (if (n + 1) % 16 = 0 then (k1_pay1 (F := F), k1_pay2 (F := F)) else scr1 c n (Nat.lt_of_succ_lt hn))

/-- At the first column block of a row tile the pair starts from zero. -/
theorem scr1_first (c : Dev nD) (t : Fin cfg1.N) (h : t.val % 16 = 0) :
    scr1 V c t.val t.isLt = step1 V c t (k1_pay1 (F := F), k1_pay2 (F := F)) := by
  obtain ⟨n, hn⟩ := t
  cases n with
  | zero => rfl
  | succ n => exact congrArg (step1 V c ⟨n + 1, hn⟩) (if_pos h)

/-- At any other column block it continues from the point before. -/
theorem scr1_next (c : Dev nD) (t : Fin cfg1.N) (h : ¬t.val % 16 = 0) :
    scr1 V c t.val t.isLt = step1 V c t (scr1 V c (t.val - 1) (Nat.lt_of_le_of_lt (Nat.sub_le _ _) t.isLt)) := by
  obtain ⟨n, hn⟩ := t
  cases n with
  | zero => exact absurd (Nat.zero_mod _) h
  | succ n => exact congrArg (step1 V c ⟨n + 1, hn⟩) (if_neg h)

/-- The output tile the body stores at the last column block of a row tile (at the other points the window is idle
    and this term is consulted by nothing). -/
def out1 (c : Dev nD) (t : Fin cfg1.N) : Vec F S2048x256 .f32 :=
  fin6 (scr1 V c t.val t.isLt).1 (scr1 V c t.val t.isLt).2 (iblk1 V c 2 t) (iblk1 V c 3 t) (iblk1 V c 4 t) (iblk1 V c 5 t)

/-- The scratch operands: whole scoped buffers of the kernel's own. -/
abbrev scM0 : Memref sig .tc .vmem S2048x256 .f32 := Memref.whole cc1_scratch0
abbrev scM1 : Memref sig .tc .vmem S2048x128 .f32 := Memref.whole cc1_scratch1

/-- The scoped buffers region 1 neither stages through nor uses: region 0's staging buffers, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The class's invariant with the two scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM0 fullShare d) ∗ (∃ d, owns (c : Thread nD τ) scM1 fullShare d)) ∗ (∃ r, prngReg c r)) := by
  unfold Pipeline.ΦA; rw [scopedRest1_eq]; simp only [scM0, scM1, owns_whole]; try rfl

/-- The region invariant before position `n`: before the first point the class's (both scratch buffers at anything);
    afterwards region 0's staging buffers at anything, the two scratch buffers at the running pair the point before
    left, and the generator register at some state. -/
def Phi1 (c : Dev nD) : (n : ℕ) → n ≤ cfg1.N → sProp 𝕄
  | 0, _ => Pipeline.ΦA spec1 c
  | n + 1, hn => iprop(rest1 (F := F) c ∗ owns (c : Thread nD τ) scM0 fullShare (scr1 V c n hn).1 ∗ owns (c : Thread nD τ) scM1 fullShare (scr1 V c n hn).2 ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(rest1 (F := F) c ∗ owns (c : Thread nD τ) scM0 fullShare (scr1 V c n hn).1 ∗ owns (c : Thread nD τ) scM1 fullShare (scr1 V c n hn).2 ∗ (∃ r, prngReg c r)) := rfl
theorem Phi1_pos (c : Dev nD) (n : ℕ) (h : n ≤ cfg1.N) (hz : n ≠ 0) :
    Phi1 V c n h = iprop(rest1 (F := F) c ∗ owns (c : Thread nD τ) scM0 fullShare (scr1 V c (n - 1) (by omega)).1 ∗ owns (c : Thread nD τ) scM1 fullShare (scr1 V c (n - 1) (by omega)).2 ∗ (∃ r, prngReg c r)) := by
  cases n with
  | zero => exact absurd rfl hz
  | succ n => rfl

/-- Region 1's proof data. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end Regions

end Cert.Kernel.Hand

end
-- ==== Proof.Bits.Body0.lean ====
/-
  The body of region 0 on whole buffers: it loads the row tile of X, the weight matrix and the bias row through
  the whole-buffer rectangles, and stores one payload through the whole-buffer rectangle of its output. A load
  through the whole-shape rectangle at zero offsets reads the contents, and one store through it leaves its
  payload, so the output buffer ends at `out0` of the three inputs.
-/
import proofs.«109917_j84868553769261_2_alg».proof.Proof.Gen.Kernel.Launch
import proofs.«109917_j84868553769261_2_alg».proof.Proof.Gen.Kernel.Skeleton
import proofs.«109917_j84868553769261_2_alg».proof.Proof.Gen.Kernel.Points
import proofs.«109917_j84868553769261_2_alg».proof.Proof.Bits.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-! ## Whole-buffer accesses

Every access of these bodies but two goes through the whole-shape rectangle at zero offsets of the buffer's own sizes.
A load through it reads the contents; a store through it, made last, leaves its payload whatever was stored before. -/

section Whole

variable {Val : EltTy → Type} [∀ e, Nonempty (Val e)] {sg : RefSig} {κ : Kind} {sp : Space} {S : Shape} {e : EltTy}

/-- A load through the whole-shape rectangle at zero offsets reads the buffer's contents. -/
theorem readAt_unit_zero (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- After a store through the whole-shape rectangle at zero offsets, made last, the buffer reads as that store's payload. -/
theorem read_writes_cons_unit_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

end Whole

/-- The zero offsets of a rank-2 access, as the constant function. -/
theorem off2_zero : (![0, 0] : Fin 2 → ℕ) = fun _ => 0 := by funext a; fin_cases a <;> rfl

set_option maxHeartbeats 1000000 in
/-- The body of region 0 on whole buffers, the inputs' at contents `x0 x1 x2` and the output's at anything, runs to the
    continuation holding the inputs' as they were and the output's at `out0 x0 x1 x2`. -/
theorem run0 (c : Dev nD) (E : Set ℕ) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S2048x256 .bf16) (harg4 : arg4.IsWhole) (x0 : Vec F S2048x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0 x0 x1 x2)) -∗ K ⟨⟩))
      ⊢ wp frame (wpE (defs₀ (F := F)) Variants.none c none) E (cc0__h_kernel i arg1 harg1 arg2 harg2 arg3 harg3 arg4 harg4) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads as the store's payload,
  refine (read_writes_cons_unit_zero _ _ off2_zero inb_S2048x256_S2048x256_0_0 _ _).trans ?_
  -- and each whole-buffer load read the contents
  rw [readAt_unit_zero arg1.view f0 off2_zero inb_S2048x256_S2048x256_0_0,
    readAt_unit_zero arg2.view f1 off2_zero inb_S256x256_S256x256_0_0,
    readAt_unit_zero arg3.view f2 off2_zero inb_S1x256_S1x256_0_0]
  rfl

end Cert.Kernel.Hand

end
-- ==== Proof.Bits.Body1.lean ====
/-
  Region 1's kernel body on whole staging buffers, in its three control cases over the column-block coordinate j:
  j = 0 (the two running buffers are zeroed first), 0 < j < 15 (accumulate only), j = 15 (accumulate, then the
  output tile is stored). In every case the product accumulator ends at `acc0` and the row-sum accumulator at
  `acc1` of what they started from; the inputs are left as found; the output tile is untouched except at j = 15,
  where it ends at `fin6` of the updated accumulators.

  Every store of the body goes through the whole-shape rectangle of its buffer, so a buffer reads as the payload
  of the last store made into it, and a load made after a store reads that payload at the load's rectangle.
-/
import proofs.«109917_j84868553769261_2_alg».proof.Proof.Gen.Kernel.Launch
import proofs.«109917_j84868553769261_2_alg».proof.Proof.Gen.Kernel.Skeleton
import proofs.«109917_j84868553769261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«109917_j84868553769261_2_alg».proof.Proof.Bits.Outs
import proofs.«109917_j84868553769261_2_alg».proof.Proof.Bits.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- j = 0: the body's first conditional, from the grid coordinates. -/
abbrev cond1_0 (i : grid1.Coords) : Prop := (Scalar.cmpi .ne (Scalar.extui (Scalar.cmpi .eq (BitVec.ofNat 32 (i 1).val) 0#32)) 0#32) = 1#1
/-- j = 15: the body's second conditional. -/
abbrev cond1_1 (i : grid1.Coords) : Prop := k1_cond2 i = 1#1

/-- The first conditional holds exactly at the first column block of each row tile. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second holds exactly at the last. -/
theorem hcond1_1 : ∀ t : Fin cfg1.N, cond1_1 (grid1.coords t) ↔ t.val % 16 = 15 :=
  (by decide +kernel : ∀ t : Fin grid1.N, cond1_1 (grid1.coords t) ↔ t.val % 16 = 15)

section Sub

variable {Val : EltTy → Type} [∀ e, Nonempty (Val e)] {sg : RefSig} {κ : Kind} {sp : Space} {S : Shape} {e : EltTy}

/-- A load through any rectangle of a buffer whose one store so far went through the whole-shape rectangle at zero
    offsets reads that store's payload at the rectangle's indices. -/
theorem readCov_unit_zero_ld (v : View sg κ sp S e) {off : Fin S.rank → ℕ} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld v _ r (fun y => ⟨_, List.mem_singleton_self _, View.mem_set_unit_zero h inb y⟩),
    View.canon_unit_zero h inb w]

end Sub

set_option maxHeartbeats 1000000 in
/-- First column block: both accumulators start from zero. -/
theorem run1_A (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : cond1_0 i) (hc1 : ¬cond1_1 i) (d8 : Vec F S2048x256 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (acc0 i x0 x1 (k1_pay1 (F := F))) ∗ owns (c : Thread nD τ) arg10 fullShare (acc1 x0 (k1_pay2 (F := F)))) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%d9, %f9, -, H9⟩, ⟨%d10, %f10, -, H10⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists _; isplitr
    swap; · iexact H9
    ipureintro
    sl_unfold_run_names
    -- the accumulate store, made last, covers the product accumulator; its load before that store read the zero
    -- fill's payload, the one store made until then
    refine (read_writes_cons_unit_zero _ _ off2_zero inb_S2048x256_S2048x256_0_0 _ _).trans ?_
    rw [readAt_unit_zero arg2.view f0 off2_zero inb_S2048x512_S2048x512_0_0,
      View.readCov_unit_zero (Val := Elt F) (e := .f32) arg9.view off2_zero inb_S2048x256_S2048x256_0_0 (k1_pay1 (F := F))]
    rfl
  iexists _; isplitr
  swap; · iexact H10
  ipureintro
  sl_unfold_run_names
  -- likewise the row-sum accumulator
  refine (read_writes_cons_unit_zero _ _ off2_zero inb_S2048x128_S2048x128_0_0 _ _).trans ?_
  rw [readAt_unit_zero arg2.view f0 off2_zero inb_S2048x512_S2048x512_0_0,
    View.readCov_unit_zero (Val := Elt F) (e := .f32) arg10.view off2_zero inb_S2048x128_S2048x128_0_0 (k1_pay2 (F := F))]
  rfl

set_option maxHeartbeats 1000000 in
/-- A middle column block: both accumulators updated from what the block before left. -/
theorem run1_B (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : ¬cond1_0 i) (hc1 : ¬cond1_1 i) (d8 : Vec F S2048x256 .f32) (s0 : Vec F S2048x256 .f32) (s1 : Vec F S2048x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d8 ∗ owns (c : Thread nD τ) arg9 fullShare (acc0 i x0 x1 s0) ∗ owns (c : Thread nD τ) arg10 fullShare (acc1 x0 s1)) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, Hk⟩
  subst hf0; subst hf1; subst hf2; subst hf3; subst hf4; subst hf5; subst hf8; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists _; isplitr
    swap; · iexact H9
    ipureintro
    -- the accumulate store covers the product accumulator, whose loads before it read what it held
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0]
    rfl
  iexists _; isplitr
  swap; · iexact H10
  ipureintro
  -- likewise the row-sum accumulator
  refine (read_writes_cons_unit_zero _ _ off2_zero inb_S2048x128_S2048x128_0_0 _ _).trans ?_
  rw [readAt_unit_zero arg2.view f0 off2_zero inb_S2048x512_S2048x512_0_0,
    readAt_unit_zero arg10.view f10 off2_zero inb_S2048x128_S2048x128_0_0]
  rfl

set_option maxHeartbeats 1000000 in
/-- The last column block: the accumulators updated, then the output tile stored from them. -/
theorem run1_C (c : Dev nD) (E : Set ℕ) (i : grid1.Coords) (arg2 : Memref sig .tc .vmem S2048x512 .f32) (harg2 : arg2.IsWhole) (arg3 : Memref sig .tc .vmem S8192x256 .bf16) (harg3 : arg3.IsWhole) (arg4 : Memref sig .tc .vmem S2048x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S2048x128 .f32) (harg10 : arg10.IsWhole) (x0 : Vec F S2048x512 .f32) (x1 : Vec F S8192x256 .bf16) (x2 : Vec F S2048x256 .f32) (x3 x4 : Vec F S256x256 .f32) (x5 : Vec F S1x256 .f32) (K : PUnit → sProp 𝕄) (hc0 : ¬cond1_0 i) (hc1 : cond1_1 i) (s0 : Vec F S2048x256 .f32) (s1 : Vec F S2048x128 .f32) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin6 (acc0 i x0 x1 s0) (acc1 x0 s1) x2 x3 x4 x5) ∗ owns (c : Thread nD τ) arg9 fullShare (acc0 i x0 x1 s0) ∗ owns (c : Thread nD τ) arg10 fullShare (acc1 x0 s1)) -∗ K ⟨⟩))
      ⊢ wp frame (wpE (defs₀ (F := F)) Variants.none c none) E (cc1__pool_fc_kernel i arg2 harg2 arg3 harg3 arg4 harg4 arg5 harg5 arg6 harg6 arg7 harg7 arg8 harg8 arg9 harg9 arg10 harg10) K := by
  simp only [cc1__pool_fc_kernel_eq_skeleton]; unfold cc1__pool_fc_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%f10, %hf10, H10⟩, Hk⟩
  subst hf0; subst hf1; subst hf2; subst hf3; subst hf4; subst hf5; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_run_names
    -- the one store covers the output tile; of its operands, the two accumulators were loaded after this point's
    -- accumulate stores — the row-sum one through its first lane's column, the product one whole — and read those
    -- stores' payloads; every other load read an untouched buffer whole
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0,
      readAt_unit_zero arg10.view f10 off2_zero inb_S2048x128_S2048x128_0_0,
      readAt_unit_zero arg4.view f2 off2_zero inb_S2048x256_S2048x256_0_0,
      readAt_unit_zero arg5.view f3 off2_zero inb_S256x256_S256x256_0_0,
      readAt_unit_zero arg6.view f4 off2_zero inb_S256x256_S256x256_0_0,
      readAt_unit_zero arg7.view f5 off2_zero inb_S1x256_S1x256_0_0,
      readCov_unit_zero_ld (Val := Elt F) (e := .f32) arg10.view off2_zero inb_S2048x128_S2048x128_0_0 _
        (Rect.unit (s := S2048x128) ![0, 0] S2048x1.size inb_S2048x128_S2048x1_0_0),
      View.readCov_unit_zero (Val := Elt F) (e := .f32) arg9.view off2_zero inb_S2048x256_S2048x256_0_0 _]
    rfl
  isplitl [H9]
  · iexists _; isplitr
    swap; · iexact H9
    ipureintro
    sl_unfold_run_names
    -- the accumulate store covers the product accumulator, whose loads before it read what it held
    refine (read_writes_cons_unit_zero _ _ off2_zero inb_S2048x256_S2048x256_0_0 _ _).trans ?_
    rw [readAt_unit_zero arg2.view f0 off2_zero inb_S2048x512_S2048x512_0_0,
      readAt_unit_zero arg9.view f9 off2_zero inb_S2048x256_S2048x256_0_0]
    rfl
  iexists _; isplitr
  swap; · iexact H10
  ipureintro
  sl_unfold_run_names
  -- likewise the row-sum accumulator
  refine (read_writes_cons_unit_zero _ _ off2_zero inb_S2048x128_S2048x128_0_0 _ _).trans ?_
  rw [readAt_unit_zero arg2.view f0 off2_zero inb_S2048x512_S2048x512_0_0,
    readAt_unit_zero arg10.view f10 off2_zero inb_S2048x128_S2048x128_0_0]
  rfl

end Cert.Kernel.Hand

end
-- ==== Proof.Bits.Regs.lean ====
/-
  The two pipelines' body obligations from the kernel bodies' runs, and @main from launch to return: the host
  operations before the first region, region 0, region 1, the host operations after — every weakly fair execution
  terminates, and every unscoped buffer ends at the contents the fold `W4` names: the launch memory, through the
  first host stretch, region 0's output array at what its write-backs leave, region 1's likewise, through the last
  host stretch. The argument arrays are written by nothing on the way.
-/
import proofs.«109917_j84868553769261_2_alg».proof.Proof.Gen.Kernel.Launch
import proofs.«109917_j84868553769261_2_alg».proof.Proof.Gen.Kernel.Skeleton
import proofs.«109917_j84868553769261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Bits.Outs
import proofs.«109917_j84868553769261_2_alg».proof.Proof.Gen.Kernel.Regions
import proofs.«109917_j84868553769261_2_alg».proof.Proof.Bits.Data
import proofs.«109917_j84868553769261_2_alg».proof.Proof.Bits.Body0
import proofs.«109917_j84868553769261_2_alg».proof.Proof.Bits.Body1
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! ## Region 0: the body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (run0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## Region 1: where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Off the last column block the output window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last column block it is live. -/
theorem liveAt1_6 : ∀ t : Fin cfg1.N, cond1_1 (grid1.coords t) → cfg1.idle 6 (grid1.coords t) = false := by decide +kernel

/-! ## Region 1: the body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point. The closed forms of the two conditionals say which case the point is in; the invariant
    hands the body the two scratch buffers — at anything before the first point, at the running pair the point
    before left afterwards — and takes them back at this point's pair; off the last column block the output window
    is idle and its buffer goes back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
        unfold Dat.leavesExact; rw [liveAt1_0 t], after1_0]
  rw [show (dat1 V c).leavesExact 1 t = owns (c : Thread nD τ) (st1_1 t) fullShare ((dat1 V c).after 1 t) from by
        unfold Dat.leavesExact; rw [liveAt1_1 t], after1_1]
  rw [show (dat1 V c).leavesExact 2 t = owns (c : Thread nD τ) (st1_2 t) fullShare ((dat1 V c).after 2 t) from by
        unfold Dat.leavesExact; rw [liveAt1_2 t], after1_2]
  rw [show (dat1 V c).leavesExact 3 t = owns (c : Thread nD τ) (st1_3 t) fullShare ((dat1 V c).after 3 t) from by
        unfold Dat.leavesExact; rw [liveAt1_3 t], after1_3]
  rw [show (dat1 V c).leavesExact 4 t = owns (c : Thread nD τ) (st1_4 t) fullShare ((dat1 V c).after 4 t) from by
        unfold Dat.leavesExact; rw [liveAt1_4 t], after1_4]
  rw [show (dat1 V c).leavesExact 5 t = owns (c : Thread nD τ) (st1_5 t) fullShare ((dat1 V c).after 5 t) from by
        unfold Dat.leavesExact; rw [liveAt1_5 t], after1_5]
  have hN : t.val < 64 := lt_of_lt_of_eq t.isLt (show cfg1.N = 64 from N_1)
  by_cases h0 : t.val % 16 = 0
  · have hc0 : cond1_0 (grid1.coords t) := (hcond1_0 t).mpr h0
    have hc1 : ¬cond1_1 (grid1.coords t) := fun h => by have := (hcond1_1 t).mp h; omega
    rw [Dat.leavesExact_idle (dat1 V c) 6 t (idleAt1_6 t hc1) (noFlush1_6 t hc1)]
    rw [scr1_first V c t h0]; unfold step1; dsimp only
    by_cases hz : t.val = 0
    · rw [Phi1_castSucc V c t, Phi1_zero V c _ _ hz, PhiA1_eq]
      iintro ⟨⟨⟨HR0, HR1, HR2, HR3, HR4, HR5, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR0 HR1 HR2 HR3 HR4 HR5 HS0 HS1 Hg]
      · isplitl [HR0 HR1 HR2 HR3 HR4 HR5]
        · unfold rest1
          isplitl [HR0]; · iexact HR0
          isplitl [HR1]; · iexact HR1
          isplitl [HR2]; · iexact HR2
          isplitl [HR3]; · iexact HR3
          isplitl [HR4]; · iexact HR4
          iexact HR5
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_A c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hc0 : ¬cond1_0 (grid1.coords t) := fun h => h0 ((hcond1_0 t).mp h)
    have hz : t.val ≠ 0 := fun h => h0 (by rw [h])
    by_cases h1 : t.val % 16 = 15
    · have hc1 : cond1_1 (grid1.coords t) := (hcond1_1 t).mpr h1
      rw [show (dat1 V c).leavesExact 6 t = owns (c : Thread nD τ) (st1_6 t) fullShare ((dat1 V c).after 6 t) from by
        unfold Dat.leavesExact; rw [liveAt1_6 t hc1], after1_6]
      unfold out1
      rw [scr1_next V c t h0]; unfold step1; dsimp only
      rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_C c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 6 t (idleAt1_6 t hc1) (noFlush1_6 t hc1)]
      rw [scr1_next V c t h0]; unfold step1; dsimp only
      rw [Phi1_castSucc V c t, Phi1_pos V c _ _ hz]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
      iapply (run1_B c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) _ hc0 hc1 _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation1 (c : Dev nD) : BodyObligation (dat1 (F := F) V c) (defs₀ (F := F)) Variants.none () Set.univ := fun t => by
  rw [bigSep_W1, bigSep_W1]
  exact sound_body1 V c t

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega), PhiA1_eq]
  unfold rest1
  iintro ⟨⟨HR0, HR1, HR2, HR3, HR4, HR5⟩, HS0, HS1, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    iexists _; iexact HS1
  iexact Hg

end Regions

end Cert.Kernel.Hand

end
-- ==== Proof.Bits.Run.lean ====
/-
  @main from launch to return, as four segments: the host operations before the regions, region 0, region 1, the
  host operations after. Between segments every unscoped buffer of the core is held at the contents a fold names:
  W0 the launch memory; W1 after the first host stretch; W2 with region 0's arrays at what its write-backs leave;
  W3 with region 1's likewise; W4 after the last host stretch. Every weakly fair execution terminates, and the
  final memory holds W4 at every unscoped buffer.
-/
import proofs.«109917_j84868553769261_2_alg».proof.Proof.Gen.Kernel.Launch
import proofs.«109917_j84868553769261_2_alg».proof.Proof.Gen.Kernel.Skeleton
import proofs.«109917_j84868553769261_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«109917_j84868553769261_2_alg».proof.Proof.Bits.Outs
import proofs.«109917_j84868553769261_2_alg».proof.Proof.Bits.Regs
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (region 0's entry). -/
abbrev W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host stretch: the final contents. -/
abbrev W4 (c : Dev nD) : Valuation τ sig (Elt F) := StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer at `W1`, left at `W2`. Its arrays split out of the unscoped buffers
    and put back at the exit contents; the generator register into the class invariant and out; nothing owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`; the generator register into the region
    invariant (the class's before the first point) and out of it after the last (the scratch contents forgotten). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hΦ : (pdats m ρ 1 c).Φ (Fin.last _) ⊢ (Pipeline.ΦA spec1 c : sProp 𝕄) := hout1 (V2 m ρ) c
    have hA : (Pipeline.ΦA spec1 c : sProp 𝕄) ⊢ iprop((∃ r, prngReg c r) ∗ Pipeline.ownSems0 (Ix := Unit) (Name := ℕ) (U := Pipeline.UD sig nD τ) (Lvl := ℕ) (Val := Elt F) (τ := τ) (fun k : PEmpty => k.elim) c ∗ Pipeline.scopedRest spec1 c) := by
      rw [Pipeline.ownSems0_none]; unfold Pipeline.ΦA
      iintro ⟨Hr, Hp⟩
      isplitl [Hp]; · iexact Hp
      isplitr; · iempintro
      iexact Hr
    exact hΦ.trans hA
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and the
    final memory holds `W4` at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.Bits.Args.lean ====
/-
  Every argument array ends holding what it held at launch: no host operation writes one, and a region either
  does not touch it or reads it through an input window, which writes nothing back. So the fold that names the
  final contents, read at an argument's buffer, walks back through the four segments to the launch memory.
-/
import proofs.«109917_j84868553769261_2_alg».proof.Proof.Bits.Run
import proofs.«109917_j84868553769261_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer the first host stretch does not write holds after it what it held at launch. -/
theorem W1_arg (c : Dev nD) (b : Ref sig .tc) (h : b ∉ hostOps0_W) :
    W1 m ρ c (Proc.devRef .tc b) = m ((c : Thread nD τ).loc b) :=
  (StableHlo.after_of_writes_sub hostOps0 _ hostOps0_writes h).trans rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = m ((c : Thread nD τ).loc main_arg0) := W1_arg m ρ c main_arg0 (by decide)

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_arg m ρ c main_arg1 (by decide)

/-- `main_arg2` is an input window's array of region 0, which reads it and writes nothing back. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) :=
        (W2_arr m ρ c 1).trans (((dat0 (V1 m ρ) c).arrAt_in 1 rfl _).trans (A_eq0 (V1 m ρ) c 1))
    _ = m ((c : Thread nD τ).loc main_arg2) := W1_arg m ρ c main_arg2 (by decide)

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_arg m ρ c main_arg3 (by decide)

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_arg m ρ c main_arg4 (by decide)

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_arg m ρ c main_arg5 (by decide)

end Cert.Kernel.Hand

end
-- ==== Proof.Spec.lean ====
/-
  The function both programs compute, on the extended reals, index by index.

  Inputs: A [1, 8192, 8192], X [1, 8192, 256], Ww [256, 256], bw [256], Wfc [512, 256], bfc [256].
    hid r e    = max (Σₖ X[0,r,k]·Ww[k,e] + bw[e]) 0                       (the hidden layer)
    rowsum r   = Σⱼ A[0,r,j]
    pooled r d = (Σⱼ A[0,r,j]·hid j d) / (rowsum r + eps)                  (average pooling over neighbours)
    pre r e    = max (Σₖ X[0,r,k]·Wfc[k,e] + Σₖ pooled r k·Wfc[256+k,e] + bfc[e]) 0 + eps
    out r e    = pre r e / (√(Σᵣ Σₑ pre r e · pre r e) + eps)              (global L2 normalisation)
  eps is the f32 constant nearest 1e-8, the same word in both programs; the quotient is the extended reals'
  `Ideal.div`, the square root `Ideal.sqrt`.
-/
import Idealize.ShloMosaic.PureOps.Ideal
import Idealize.ShloMosaic.Lib.ValueIdx

noncomputable section

open scoped BigOperators

namespace Cert.Spec

open Idealize.ShloMosaic Idealize.ShloMosaic.ValueIdx

abbrev SA : Shape := ⟨3, ![1, 8192, 8192]⟩
abbrev SX : Shape := ⟨3, ![1, 8192, 256]⟩
abbrev SW : Shape := ⟨2, ![256, 256]⟩
abbrev SB : Shape := ⟨1, ![256]⟩
abbrev SF : Shape := ⟨2, ![512, 256]⟩

/-- The small constant both programs add: the f32 word 0x322BCC77. -/
def eps : EReal := Ideal.ofBits .f32 0x322BCC77#32

variable (A : SA.Idx → EReal) (X : SX.Idx → EReal) (Ww : SW.Idx → EReal) (bw : SB.Idx → EReal)
  (Wfc : SF.Idx → EReal) (bfc : SB.Idx → EReal)

/-- The hidden layer: relu (X · Ww + bw). -/
def hid (r : Fin 8192) (e : Fin 256) : EReal :=
  max ((∑ k : Fin 256, X (ix3 (0 : Fin 1) r k) * Ww (ix2 k e)) + bw (ix1 e)) 0

/-- A row's sum of A. -/
def rowsum (r : Fin 8192) : EReal := ∑ j : Fin 8192, A (ix3 (0 : Fin 1) r j)

/-- Neighbour pooling: (A · hid) divided row by row by (rowsum + eps). -/
def pooled (r : Fin 8192) (d : Fin 256) : EReal :=
  Ideal.div (∑ j : Fin 8192, A (ix3 (0 : Fin 1) r j) * hid X Ww bw j d) (rowsum A r + eps)

/-- Rows 0..255 of Wfc. -/
def wTop (k : Fin 256) : Fin 512 := ⟨k.val, by omega⟩
/-- Rows 256..511 of Wfc. -/
def wBot (k : Fin 256) : Fin 512 := ⟨256 + k.val, by omega⟩

/-- The dense layer on [X, pooled], relu, plus eps. -/
def pre (r : Fin 8192) (e : Fin 256) : EReal :=
  max (((∑ k : Fin 256, X (ix3 (0 : Fin 1) r k) * Wfc (ix2 (wTop k) e))
        + (∑ k : Fin 256, pooled A X Ww bw r k * Wfc (ix2 (wBot k) e))) + bfc (ix1 e)) 0 + eps

/-- The sum of squares of every entry of `pre`. -/
def normsq : EReal := ∑ r : Fin 8192, ∑ e : Fin 256, pre A X Ww bw Wfc bfc r e * pre A X Ww bw Wfc bfc r e

/-- The result entry (r, e). -/
def out (r : Fin 8192) (e : Fin 256) : EReal :=
  Ideal.div (pre A X Ww bw Wfc bfc r e) (Ideal.sqrt (normsq A X Ww bw Wfc bfc) + eps)

/-- The result array [1, 8192, 256]. -/
def result : SX.Idx → EReal := fun i =>
  out A X Ww bw Wfc bfc ⟨(i 1).val, (i 1).isLt⟩ ⟨(i 2).val, (i 2).isLt⟩

end Cert.Spec

end
-- ==== Proof.RefValue.lean ====
/-
  The reference program computes the mathematical function of Spec.lean.

  The reference is read one operation at a time (the generated reading module gives each operation's value at an
  index from its operands' values at an index); here the stages are identified with the function's parts:

    the first dense layer with its relu           is  hid
    the neighbour average (A · hid) / (rowsum + eps)   is  pooled
    the concatenation [X, pooled] along the columns read at column c: X for c < 256, pooled at c - 256 otherwise
    the second dense layer over the 512 columns splits as the sum over the first 256 (X against the top rows of the
      weights) plus the sum over the last 256 (pooled against the bottom rows); with bias, relu and eps it is  pre
    the sum of squares over the whole [1, 8192, 256] array is the double sum over rows and columns, and the final
      quotient is  out.

  On the extended reals addition is a commutative monoid, so the sums reorder freely; no finiteness is used.
-/
import proofs.«109917_j84868553769261_2_alg».proof.Proof.Gen.ReferenceIdeal.Read
import proofs.«109917_j84868553769261_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen

/-! ## Sums -/

/-- A sum over 512 columns is the sum over the first 256 plus the sum over the last 256. -/
theorem sum_split (f : Fin 512 → EReal) :
    ∑ c : Fin 512, f c = ∑ k : Fin 256, f (Cert.Spec.wTop k) + ∑ k : Fin 256, f (Cert.Spec.wBot k) :=
  Fin.sum_univ_add (a := 256) (b := 256) (fun c : Fin (256 + 256) => f c)

/-- An index of a [1, n₁, n₂] array is its row and column. -/
def idxEquiv3 {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact (Fin.eq_zero (i 0)).symm
    | ⟨1, _⟩ => rfl
    | ⟨2, _⟩ => rfl
  right_inv _ := rfl

/-- A sum over every index of a [1, n₁, n₂] array is the double sum over rows and columns. -/
theorem sum_idx3 {n1 n2 : Nat} (f : (⟨3, ![1, n1, n2]⟩ : Shape).Idx → EReal) :
    ∑ i, f i = ∑ r : Fin n1, ∑ e : Fin n2, f (ix3 (0 : Fin 1) r e) := by
  rw [← Equiv.sum_comp (idxEquiv3 (n1 := n1) (n2 := n2)).symm f, Fintype.sum_prod_type]
  rfl

/-! ## The hidden layer -/

variable (x0 : (⟨S1x8192x8192, .f32⟩ : BufTy).Contents (Elt Ideal)) (x1 : (⟨S1x8192x256, .f32⟩ : BufTy).Contents (Elt Ideal))
  (x2 : (⟨S256x256, .f32⟩ : BufTy).Contents (Elt Ideal)) (x3 : (⟨S256, .f32⟩ : BufTy).Contents (Elt Ideal))
  (x4 : (⟨S512x256, .f32⟩ : BufTy).Contents (Elt Ideal)) (x5 : (⟨S256, .f32⟩ : BufTy).Contents (Elt Ideal))

theorem lidx_v0 (r : Fin 8192) (e k : Fin 256) : Read.lidx_main_v0 (ix3 (0 : Fin 1) r e) k = ix3 (0 : Fin 1) r k := by
  funext a; match a with | ⟨0, _⟩ => rfl | ⟨1, _⟩ => rfl | ⟨2, _⟩ => rfl

theorem ridx_v0 (r : Fin 8192) (e k : Fin 256) : Read.ridx_main_v0 (ix3 (0 : Fin 1) r e) k = ix2 k e := by
  funext a; match a with | ⟨0, _⟩ => rfl | ⟨1, _⟩ => rfl

theorem idx_v1v2 (r : Fin 8192) (e : Fin 256) : Read.idx_main_v1 (Read.idx_main_v2 (ix3 (0 : Fin 1) r e)) = ix1 e := by
  funext a; match a with | ⟨0, _⟩ => rfl

/-- The first dense layer with its relu is `hid`. -/
theorem hid_stage (r : Fin 8192) (e : Fin 256) :
    Read.val_main_v4 (F := Ideal) x1 x2 x3 (ix3 (0 : Fin 1) r e) = Cert.Spec.hid x1 x2 x3 r e := by
  rw [Read.val_main_v4_apply, Read.val_main_v3_apply, Read.val_main_v0_apply, Read.val_main_v2_apply, Read.val_main_v1_apply,
    Read.val_main_call0_v0_apply, Read.val_main_call0_cst_apply, idx_v1v2]
  simp only [lidx_v0, ridx_v0]
  rw [Ideal.maximumf_def, Ideal.addf_def]
  show max _ (Ideal.ofBits .f32 0x00000000#32) = _
  rw [Ideal.ofBits_zero_f32]
  rfl

/-! ## The neighbour average -/

theorem lidx_v5 (r : Fin 8192) (d : Fin 256) (k : Fin 8192) : Read.lidx_main_v5 (ix3 (0 : Fin 1) r d) k = ix3 (0 : Fin 1) r k := by
  funext a; match a with | ⟨0, _⟩ => rfl | ⟨1, _⟩ => rfl | ⟨2, _⟩ => rfl

theorem ridx_v5 (r : Fin 8192) (d : Fin 256) (k : Fin 8192) : Read.ridx_main_v5 (ix3 (0 : Fin 1) r d) k = ix3 (0 : Fin 1) k d := by
  funext a; match a with | ⟨0, _⟩ => rfl | ⟨1, _⟩ => rfl | ⟨2, _⟩ => rfl

theorem idx_v6 (r : Fin 8192) (d : Fin 256) (k : Fin 8192) :
    Read.idx_main_v6 (Read.idx_main_v7 (Read.idx_main_v10 (ix3 (0 : Fin 1) r d))) k = ix3 (0 : Fin 1) r k := by
  funext a; match a with | ⟨0, _⟩ => rfl | ⟨1, _⟩ => rfl | ⟨2, _⟩ => rfl

/-- (A · hid) divided row by row by (rowsum + eps) is `pooled`. -/
theorem pooled_stage (r : Fin 8192) (d : Fin 256) :
    Read.val_main_v11 (F := Ideal) x0 x1 x2 x3 (ix3 (0 : Fin 1) r d) = Cert.Spec.pooled x0 x1 x2 x3 r d := by
  rw [Read.val_main_v11_apply, Read.val_main_v5_apply, Read.val_main_v10_apply, Read.val_main_v9_apply, Read.val_main_v7_apply,
    Read.val_main_v6_apply, Read.val_main_v8_apply, Read.val_main_cst_0_apply, Read.val_main_cst_apply]
  simp only [lidx_v5, ridx_v5, idx_v6, hid_stage]
  rw [Ideal.hostDivf_def, Ideal.addf_def]
  show Ideal.div _ (Ideal.ofBits .f32 0x00000000#32 + _ + Cert.Spec.eps) = _
  rw [Ideal.ofBits_zero_f32, zero_add]
  rfl

/-! ## The concatenation [X, pooled] -/

/-- Columns 0..255 of the concatenation are X. -/
theorem cat_left (r : Fin 8192) (k : Fin 256) :
    Read.val_main_v12 (F := Ideal) x0 x1 x2 x3 (ix3 (0 : Fin 1) r (Cert.Spec.wTop k)) = x1 (ix3 (0 : Fin 1) r k) := by
  unfold Read.val_main_v12
  exact concatenate_pair_apply_left (2 : Fin 3) x1 _ concatenates_S1x8192x256_S1x8192x256_S1x8192x512_d2
    (ix3 (0 : Fin 1) r (Cert.Spec.wTop k)) rfl (ix3 (0 : Fin 1) r k)
    (fun b => match b with | ⟨0, _⟩ => rfl | ⟨1, _⟩ => rfl | ⟨2, _⟩ => rfl)

/-- Columns 256..511 of the concatenation are `pooled`. -/
theorem cat_right (r : Fin 8192) (k : Fin 256) :
    Read.val_main_v12 (F := Ideal) x0 x1 x2 x3 (ix3 (0 : Fin 1) r (Cert.Spec.wBot k)) = Cert.Spec.pooled x0 x1 x2 x3 r k := by
  unfold Read.val_main_v12
  refine (concatenate_pair_apply_right (t := S1x8192x512) (s₁ := S1x8192x256) (s₂ := S1x8192x256) (2 : Fin 3) x1
    (Read.val_main_v11 (F := Ideal) x0 x1 x2 x3) concatenates_S1x8192x256_S1x8192x256_S1x8192x512_d2
    (ix3 (0 : Fin 1) r (Cert.Spec.wBot k)) rfl rfl (ix3 (0 : Fin 1) r k)
    (fun b => match b with
      | ⟨0, _⟩ => fun _ => rfl
      | ⟨1, _⟩ => fun _ => rfl
      | ⟨2, _⟩ => fun h => absurd rfl h)
    (by show k.val + 256 = 256 + k.val; omega)).trans ?_
  exact pooled_stage x0 x1 x2 x3 r k

/-! ## The second dense layer -/

theorem lidx_v13 (r : Fin 8192) (e : Fin 256) (c : Fin 512) : Read.lidx_main_v13 (ix3 (0 : Fin 1) r e) c = ix3 (0 : Fin 1) r c := by
  funext a; match a with | ⟨0, _⟩ => rfl | ⟨1, _⟩ => rfl | ⟨2, _⟩ => rfl

theorem ridx_v13 (r : Fin 8192) (e : Fin 256) (c : Fin 512) : Read.ridx_main_v13 (ix3 (0 : Fin 1) r e) c = ix2 c e := by
  funext a; match a with | ⟨0, _⟩ => rfl | ⟨1, _⟩ => rfl

theorem idx_v14v15 (r : Fin 8192) (e : Fin 256) : Read.idx_main_v14 (Read.idx_main_v15 (ix3 (0 : Fin 1) r e)) = ix1 e := by
  funext a; match a with | ⟨0, _⟩ => rfl

/-- The dense layer on [X, pooled] with bias, relu and eps is `pre`. -/
theorem pre_stage (r : Fin 8192) (e : Fin 256) :
    Read.val_main_v19 (F := Ideal) x0 x1 x2 x3 x4 x5 (ix3 (0 : Fin 1) r e) = Cert.Spec.pre x0 x1 x2 x3 x4 x5 r e := by
  rw [Read.val_main_v19_apply, Read.val_main_v17_apply, Read.val_main_v16_apply, Read.val_main_v13_apply, Read.val_main_v15_apply,
    Read.val_main_v14_apply, Read.val_main_call1_v0_apply, Read.val_main_call1_cst_apply, Read.val_main_v18_apply,
    Read.val_main_cst_1_apply, idx_v14v15]
  simp only [lidx_v13, ridx_v13]
  rw [sum_split]
  simp only [cat_left, cat_right]
  rw [Ideal.addf_def, Ideal.maximumf_def, Ideal.addf_def]
  show max _ (Ideal.ofBits .f32 0x00000000#32) + Cert.Spec.eps = _
  rw [Ideal.ofBits_zero_f32]
  rfl

/-! ## The normalisation -/

/-- The reference computes the mathematical function. -/
theorem ref_result :
    Read.val_main_v23 (F := Ideal) x0 x1 x2 x3 x4 x5 = Cert.Spec.result x0 x1 x2 x3 x4 x5 := by
  funext i
  obtain ⟨a, r, e, rfl⟩ : ∃ (a : Fin 1) (r : Fin 8192) (e : Fin 256), i = ix3 a r e := ⟨i 0, i 1, i 2, eq_ix3 i⟩
  obtain rfl : a = 0 := Fin.eq_zero a
  rw [Read.val_main_v23_apply, Read.val_main_v22_apply, Read.val_main_v21_apply, Read.val_main_v20_apply,
    Read.val_main_call2_v1_apply, Read.val_main_cst_2_apply, Read.val_main_call2_cst_apply, sum_idx3]
  simp only [Read.val_main_call2_v0_apply, pre_stage]
  rw [Ideal.hostDivf_def, Ideal.addf_def, Ideal.hostUnary_sqrt_def]
  show Ideal.div _ (Ideal.sqrt (Ideal.ofBits .f32 0x00000000#32 + _) + Cert.Spec.eps) = _
  rw [Ideal.ofBits_zero_f32, zero_add]
  rfl

end Cert.ReferenceIdeal.RefValue

end
-- ==== Proof.Tail.lean ====
/-
  The host operations the kernel program applies after its two kernels, as one function of the [8192, 256] array P
  the second kernel leaves:

      ktail P [0, r, e] = P[r, e] / (√(Σᵣ Σₑ P[r, e]²) + eps)

  (square every entry, sum over both axes from zero, square root, add eps, divide every entry by that scalar, and
  view the result as [1, 8192, 256]). When P is the mathematical function's `pre`, entry by entry, this is the
  function's result.
-/
import proofs.«109917_j84868553769261_2_alg».proof.Proof.Gen.KernelIdeal
import proofs.«109917_j84868553769261_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Hand

open Idealize.ShloMosaic Idealize.ShloMosaic.ValueIdx Cert.KernelIdeal Cert.KernelIdeal.Gen

variable {F : FTy → Type} [FloatOps F]

/-- The nine host operations after the kernels, composed: P ↦ P / (√(ΣΣ P·P) + eps), as a [1, 8192, 256] array. -/
def ktail (P : (⟨S8192x256, .f32⟩ : BufTy).Contents (Elt F)) : (⟨S1x8192x256, .f32⟩ : BufTy).Contents (Elt F) :=
  broadcastInDim S1x8192x256 ![1, 2] bcast_S8192x256_S1x8192x256_1_2
    (Host.divf P (broadcastInDim S8192x256 ![] bcast_S_S8192x256
      (addf (Host.sqrt (Host.reduceAdd (mulf P P) (constant (F := F) S_ .f32 0x00000000#32) reducesTo_S8192x256_S_d0_1 h_S_))
        (constant (F := F) S_ .f32 0x322BCC77#32))))

/-- The sum of squares: the reduction over both axes, from zero, is the double sum over rows and columns. -/
theorem sumsq_apply (P : (⟨S8192x256, .f32⟩ : BufTy).Contents (Elt Ideal)) :
    Host.reduceAdd (F := Ideal) (mulf P P) (constant (F := Ideal) S_ .f32 0x00000000#32) reducesTo_S8192x256_S_d0_1 h_S_ ix0
      = ∑ r : Fin 8192, ∑ e : Fin 256, P (ix2 r e) * P (ix2 r e) := by
  refine (hostReduceAdd_apply (mulf (F := Ideal) P P) _ reducesTo_S8192x256_S_d0_1 h_S_ ix0).trans ?_
  refine (Ideal.hostReduceAdd_total reducesTo_S8192x256_S_d0_1 (fun b => b.elim0) _ _ ix0).trans ?_
  rw [constant_apply, Ideal.ofBits_zero_f32, zero_add, sum_idx2]
  rfl

/-- The scalar every entry is divided by: √(ΣΣ P·P) + eps. -/
theorem denom_apply (P : (⟨S8192x256, .f32⟩ : BufTy).Contents (Elt Ideal)) :
    addf (Host.sqrt (Host.reduceAdd (F := Ideal) (mulf P P) (constant (F := Ideal) S_ .f32 0x00000000#32) reducesTo_S8192x256_S_d0_1 h_S_))
        (constant (F := Ideal) S_ .f32 0x322BCC77#32) ix0
      = Ideal.sqrt (∑ r : Fin 8192, ∑ e : Fin 256, P (ix2 r e) * P (ix2 r e)) + Cert.Spec.eps := by
  rw [addf_apply]
  show Ideal.sqrt (Host.reduceAdd (F := Ideal) (mulf P P) (constant (F := Ideal) S_ .f32 0x00000000#32) reducesTo_S8192x256_S_d0_1 h_S_ ix0)
      + Cert.Spec.eps = _
  rw [sumsq_apply]

/-- The tail read at an index (0, r, e). -/
theorem ktail_apply (P : (⟨S8192x256, .f32⟩ : BufTy).Contents (Elt Ideal)) (i : S1x8192x256.Idx) :
    ktail (F := Ideal) P i
      = Ideal.div (P (ix2 (⟨(i 1).val, (i 1).isLt⟩ : Fin 8192) (⟨(i 2).val, (i 2).isLt⟩ : Fin 256)))
          (Ideal.sqrt (∑ r : Fin 8192, ∑ e : Fin 256, P (ix2 r e) * P (ix2 r e)) + Cert.Spec.eps) := by
  unfold ktail
  refine (broadcastInDim_apply _ bcast_S8192x256_S1x8192x256_1_2 _ i
    (ix2 (⟨(i 1).val, (i 1).isLt⟩ : Fin 8192) (⟨(i 2).val, (i 2).isLt⟩ : Fin 256)) (fun a => match a with
      | ⟨0, _⟩ => by show (i 1).val = if (8192 : Nat) = 1 then 0 else (i 1).val; rw [if_neg (by decide)]
      | ⟨1, _⟩ => by show (i 2).val = if (256 : Nat) = 1 then 0 else (i 2).val; rw [if_neg (by decide)])).trans ?_
  rw [hostDivf_apply, broadcastInDim_scalar_apply, denom_apply]

/-- When P is `pre` entry by entry, the tail is the mathematical function's result. -/
theorem ktail_spec (A : Cert.Spec.SA.Idx → EReal) (X : Cert.Spec.SX.Idx → EReal) (Ww : Cert.Spec.SW.Idx → EReal)
    (bw : Cert.Spec.SB.Idx → EReal) (Wfc : Cert.Spec.SF.Idx → EReal) (bfc : Cert.Spec.SB.Idx → EReal)
    (P : (⟨S8192x256, .f32⟩ : BufTy).Contents (Elt Ideal))
    (hP : ∀ (r : Fin 8192) (e : Fin 256), P (ValueIdx.ix2 r e) = Cert.Spec.pre A X Ww bw Wfc bfc r e) :
    ktail (F := Ideal) P = Cert.Spec.result A X Ww bw Wfc bfc := by
  funext i
  rw [ktail_apply]
  simp only [hP]
  rfl

end Cert.KernelIdeal.Hand

end
-- ==== Proof.Prefix.lean ====
/-
  The host operations the kernel program applies to its arguments before the two kernels run move elements and
  compute nothing: four reshapes that drop or add a leading unit axis and two row slices of the dense weights.
  Each is read here at an index, for every float instance.

    reshape [1, 8192, n] → [8192, n]  at (r, j)  is the argument at (0, r, j)
    reshape [256] → [1, 256]          at (0, e)  is the argument at e
    rows [0, 256)   of [512, 256]     at (k, e)  is the argument at (k, e)
    rows [256, 512) of [512, 256]     at (k, e)  is the argument at (256 + k, e)
-/
import proofs.«109917_j84868553769261_2_alg».proof.Proof.Gen.KernelIdeal
import proofs.«109917_j84868553769261_2_alg».proof.Proof.Spec
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- A [1, 8192, 8192] array viewed as [8192, 8192]: entry (r, j) is entry (0, r, j). -/
theorem reshapeA_apply (x : (⟨S1x8192x8192, .f32⟩ : BufTy).Contents (Elt F)) (r j : Fin 8192) :
    shapeCast S8192x8192 x shapeCasts_S1x8192x8192_S8192x8192 (ix2 r j) = x (ix3 (0 : Fin 1) r j) := by
  refine shapeCast_apply x _ (ix2 r j) (ix3 (0 : Fin 1) r j) ?_
  rw [Shape.rowMajor_val_three, Shape.rowMajor_val_two]
  show ((0 : Nat) * 8192 + r.val) * 8192 + j.val = r.val * 8192 + j.val
  omega

/-- A [1, 8192, 256] array viewed as [8192, 256]: entry (r, k) is entry (0, r, k). -/
theorem reshapeX_apply (x : (⟨S1x8192x256, .f32⟩ : BufTy).Contents (Elt F)) (r : Fin 8192) (k : Fin 256) :
    shapeCast S8192x256 x shapeCasts_S1x8192x256_S8192x256 (ix2 r k) = x (ix3 (0 : Fin 1) r k) := by
  refine shapeCast_apply x _ (ix2 r k) (ix3 (0 : Fin 1) r k) ?_
  rw [Shape.rowMajor_val_three, Shape.rowMajor_val_two]
  show ((0 : Nat) * 8192 + r.val) * 256 + k.val = r.val * 256 + k.val
  omega

/-- A [256] vector viewed as the one row of a [1, 256] array: entry (0, e) is entry e. -/
theorem reshapeB_apply (x : (⟨S256, .f32⟩ : BufTy).Contents (Elt F)) (e : Fin 256) :
    shapeCast S1x256 x shapeCasts_S256_S1x256 (ix2 (0 : Fin 1) e) = x (ix1 e) := by
  refine shapeCast_apply x _ (ix2 (0 : Fin 1) e) (ix1 e) ?_
  rw [Shape.rowMajor_val_two, Shape.rowMajor_val_one]
  show e.val = (0 : Nat) * 256 + e.val
  omega

/-- Rows 0..255 of the [512, 256] dense weights: entry (k, e) is the weights' entry (k, e). -/
theorem sliceTop_apply (x : (⟨S512x256, .f32⟩ : BufTy).Contents (Elt F)) (k e : Fin 256) :
    extractStridedSlice S256x256 ![0, 0] x slices_S512x256_S256x256_0_0 (ix2 k e) = x (ix2 (Cert.Spec.wTop k) e) := by
  refine extractStridedSlice_apply _ x _ (ix2 k e) (ix2 (Cert.Spec.wTop k) e) (fun a => ?_)
  match a with
  | ⟨0, _⟩ => show k.val = 0 + k.val; omega
  | ⟨1, _⟩ => show e.val = 0 + e.val; omega

/-- Rows 256..511 of the [512, 256] dense weights: entry (k, e) is the weights' entry (256 + k, e). -/
theorem sliceBot_apply (x : (⟨S512x256, .f32⟩ : BufTy).Contents (Elt F)) (k e : Fin 256) :
    extractStridedSlice S256x256 ![256, 0] x slices_S512x256_S256x256_256_0 (ix2 k e) = x (ix2 (Cert.Spec.wBot k) e) := by
  refine extractStridedSlice_apply _ x _ (ix2 k e) (ix2 (Cert.Spec.wBot k) e) (fun a => ?_)
  match a with
  | ⟨0, _⟩ => show 256 + k.val = 256 + k.val; rfl
  | ⟨1, _⟩ => show e.val = 0 + e.val; omega

end Cert.KernelIdeal.Hand

end
-- ==== Proof.Entry.lean ====
/-
  What the buffers hold where one segment of the program hands over to the next, read through the folds.

  After the first host stretch the six buffers it writes hold the reshaped arguments and the two row slices of the
  dense weights; every other buffer holds what it held at launch. Region 0 leaves its output array at what its
  write-backs leave and its input arrays as it found them; region 1 likewise. After the last host stretch the
  result buffer holds the normalisation of region 1's output array.
-/
import proofs.«109917_j84868553769261_2_alg».proof.Proof.Args
import proofs.«109917_j84868553769261_2_alg».proof.Proof.Tail
import proofs.«109917_j84868553769261_2_alg».proof.Proof.Prefix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## After the first host stretch -/

theorem W1_v0 (c : Dev nD) : W1 m ρ c (Proc.devRef .tc main_v0)
    = shapeCast S8192x8192 (m ((c : Thread nD τ).loc main_arg0)) shapeCasts_S1x8192x8192_S8192x8192 := by
  show StableHlo.after hostOps0 _ (Proc.devRef .tc main_v0) = _
  after_results
  rfl

theorem W1_v1 (c : Dev nD) : W1 m ρ c (Proc.devRef .tc main_v1)
    = shapeCast S8192x256 (m ((c : Thread nD τ).loc main_arg1)) shapeCasts_S1x8192x256_S8192x256 := by
  show StableHlo.after hostOps0 _ (Proc.devRef .tc main_v1) = _
  after_results
  rfl

theorem W1_v2 (c : Dev nD) : W1 m ρ c (Proc.devRef .tc main_v2)
    = shapeCast S1x256 (m ((c : Thread nD τ).loc main_arg3)) shapeCasts_S256_S1x256 := by
  show StableHlo.after hostOps0 _ (Proc.devRef .tc main_v2) = _
  after_results
  rfl

theorem W1_v3 (c : Dev nD) : W1 m ρ c (Proc.devRef .tc main_v3)
    = shapeCast S1x256 (m ((c : Thread nD τ).loc main_arg5)) shapeCasts_S256_S1x256 := by
  show StableHlo.after hostOps0 _ (Proc.devRef .tc main_v3) = _
  after_results
  rfl

theorem W1_v4 (c : Dev nD) : W1 m ρ c (Proc.devRef .tc main_v4)
    = extractStridedSlice S256x256 ![0, 0] (m ((c : Thread nD τ).loc main_arg4)) slices_S512x256_S256x256_0_0 := by
  show StableHlo.after hostOps0 _ (Proc.devRef .tc main_v4) = _
  after_results

theorem W1_v5 (c : Dev nD) : W1 m ρ c (Proc.devRef .tc main_v5)
    = extractStridedSlice S256x256 ![256, 0] (m ((c : Thread nD τ).loc main_arg4)) slices_S512x256_S256x256_256_0 := by
  show StableHlo.after hostOps0 _ (Proc.devRef .tc main_v5) = _
  after_results

/-! ## Across the regions -/

/-- A buffer that is no array of region 0's windows holds after the region what it held before. -/
theorem V2_of_V1 (c : Dev nD) (b : Ref sig .tc) (hb : ∀ w, Pipeline.arrRef spec0 w ≠ b) : V2 m ρ c b = V1 m ρ c b :=
  W2_of_ne m ρ c b hb

/-- Region 0's output array holds what its write-backs leave. -/
theorem V2_v6 (c : Dev nD) : V2 m ρ c main_v6 = (dat0 (V1 m ρ) c).arrAt 3 cfg0.N := W2_arr m ρ c 3

/-- `main_v1` is an input window's array of region 0, which writes nothing back to it. -/
theorem V2_v1 (c : Dev nD) : V2 m ρ c main_v1 = V1 m ρ c main_v1 :=
  (W2_arr m ρ c 0).trans (((dat0 (V1 m ρ) c).arrAt_in 0 rfl _).trans (A_eq0 (V1 m ρ) c 0))

/-- Region 1's output array holds what its write-backs leave. -/
theorem W3_v7 (c : Dev nD) : W3 m ρ c (Proc.devRef .tc main_v7) = (dat1 (V2 m ρ) c).arrAt 6 cfg1.N := W3_arr m ρ c 6

/-! ## After the last host stretch -/

/-- The result buffer holds the normalisation of region 1's output array. -/
theorem W4_v14 (c : Dev nD) : W4 m ρ c (Proc.devRef .tc main_v14) = ktail (W3 m ρ c (Proc.devRef .tc main_v7)) := by
  show StableHlo.after hostOps2 _ (Proc.devRef .tc main_v14) = _
  after_results
  rfl

end Cert.KernelIdeal.Hand

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KerBlock0.lean ====
/-
  The hidden-layer tile at an entry.

  Region 0 stores, for one tile of 2048 rows of X, the rectified affine image of the rows: on the extended reals,
  where a change of float format is the identity, entry (p, q) of the stored tile is

      max (Σ_{k < 256} x[p, k] · w[k, q] + b[0, q]) 0.

  Also here, for the later tiles of the second region: the product of a [2048, 256] by a [256, 256] operand into
  the zero accumulator read at an entry, and a [1, 256] row broadcast down 2048 rows read at an entry.
-/
import proofs.«109917_j84868553769261_2_alg».proof.Proof.Outs
import proofs.«109917_j84868553769261_2_alg».proof.Proof.LibMatDot
import Idealize.ShloMosaic.Lib.Pipeline.Value

noncomputable section

open scoped BigOperators

namespace Cert.KernelIdeal.Hand

open Idealize.ShloMosaic Idealize.ShloMosaic.ValueIdx Cert.KernelIdeal Cert.KernelIdeal.Gen

/-- A [2048, 256] by [256, 256] product into the zero accumulator, at entry (p, q): row p against column q. -/
theorem matmul_256_apply {φ₁ φ₂ : FTy} (lhs : FVec Ideal S2048x256 φ₁) (rhs : FVec Ideal S256x256 φ₂)
    (p : Fin 2048) (q : Fin 256) :
    matmul dot_S2048x256_S256x256_S2048x256_1_0_0_1_n_n none lhs rhs
        (constant (F := Ideal) S2048x256 .f32 0x00000000#32) (ix2 p q)
      = ∑ k : Fin 256, lhs (ix2 p k) * rhs (ix2 k q) :=
  mat_dot_zero (M := 2048) (N := 256) (K := 256) dot_S2048x256_S256x256_S2048x256_1_0_0_1_n_n none rfl rfl
    (fun j c => by
      unfold DotDims.lhsIdx
      rw [dif_neg (show ¬(0 : Fin S2048x256.rank) ∈ dot_S2048x256_S256x256_S2048x256_1_0_0_1_n_n.lhsBatch by decide),
        dif_pos (show (0 : Fin S2048x256.rank) ∈ dot_S2048x256_S256x256_S2048x256_1_0_0_1_n_n.lhsNonContracting by decide)]
      rfl)
    (fun j c => dot_S2048x256_S256x256_S2048x256_1_0_0_1_n_n.lhsIdx_val_of_single rfl j c)
    (fun j c => dot_S2048x256_S256x256_S2048x256_1_0_0_1_n_n.rhsIdx_val_of_single rfl j c)
    (fun j c => by
      unfold DotDims.rhsIdx
      rw [dif_neg (show ¬(1 : Fin S256x256.rank) ∈ dot_S2048x256_S256x256_S2048x256_1_0_0_1_n_n.rhsBatch by decide),
        dif_pos (show (1 : Fin S256x256.rank) ∈ dot_S2048x256_S256x256_S2048x256_1_0_0_1_n_n.rhsNonContracting by decide)]
      rfl)
    lhs rhs p q

/-- A [1, 256] row broadcast down 2048 rows, at (p, q): the row's entry q. -/
theorem bias_row_apply {α : Type} (v : S1x256.Idx → α) (p : Fin 2048) (q : Fin 256) :
    broadcastTo S2048x256 v broadcasts_S1x256_S2048x256 (ix2 p q) = v (ix2 (0 : Fin 1) q) := by
  refine broadcastTo_apply v broadcasts_S1x256_S2048x256 (ix2 p q) (ix2 (0 : Fin 1) q) fun ax => ?_
  match ax with
  | ⟨0, _⟩ => rfl
  | ⟨1, _⟩ => rfl

/-- The stored hidden-layer tile at (p, q): relu of row p of the X tile against column q of the weights plus the bias. -/
theorem out0_apply (x0 : Vec Ideal S2048x256 .f32) (x1 : Vec Ideal S256x256 .f32) (x2 : Vec Ideal S1x256 .f32)
    (p : Fin 2048) (q : Fin 256) :
    out0 (F := Ideal) x0 x1 x2 (ix2 p q)
      = max ((∑ k : Fin 256, x0 (ix2 p k) * x1 (ix2 k q)) + x2 (ix2 (0 : Fin 1) q)) 0 := by
  unfold out0 k0_pay1
  rw [truncf_apply, maximumf_apply, addf_apply, broadcast_apply, matmul_256_apply, bias_row_apply,
    shapeCast_self, shapeCast_self]
  simp only [truncf_apply]
  show max _ (Ideal.ofBits .f32 0x00000000#32) = _
  rw [Ideal.ofBits_zero_f32]

end Cert.KernelIdeal.Hand

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.KerBlock1.lean ====
/-
  The second region's stored values at an entry, on the extended reals (a change of float format is the identity).

  At a grid point (i, j) — row tile i of A, column block j — the body
    * at j = 0 first overwrites both running buffers with zero;
    * loads rows [512·j, 512·j + 512) of the resident hidden-layer array (the slice `hsl`);
    * adds to entry (p, q) of the product accumulator Σ_{k < 512} a[p, k] · hsl[k, q];
    * adds to every lane of row p of the row-sum accumulator Σ_{k < 512} a[p, k] (the reduction's initial
      word is zero);
    * at j = 15 stores max (x·w₁ + (acc / (rowsum + eps))·w₂ + b) 0 + eps, the row sum read from lane 0.
-/
import proofs.«109917_j84868553769261_2_alg».proof.Proof.KerBlock0
import proofs.«109917_j84868553769261_2_alg».proof.Proof.Spec
import proofs.«109917_j84868553769261_2_alg».proof.Proof.LibColumn
import proofs.«109917_j84868553769261_2_alg».proof.Proof.LibRows

noncomputable section

open scoped BigOperators

namespace Cert.KernelIdeal.Hand

open Idealize.ShloMosaic Idealize.ShloMosaic.ValueIdx Cert.KernelIdeal Cert.KernelIdeal.Gen

/-! ## The reset values -/

/-- The product accumulator's reset value is zero everywhere. -/
theorem pay1_apply (j : S2048x256.Idx) : k1_pay1 (F := Ideal) j = 0 := by
  unfold k1_pay1
  rw [shapeCast_self, broadcast_apply]
  exact Ideal.ofBits_zero_f32

/-- The row-sum accumulator's reset value is zero everywhere. -/
theorem pay2_apply (j : S2048x128.Idx) : k1_pay2 (F := Ideal) j = 0 := by
  unfold k1_pay2
  rw [shapeCast_self, broadcast_apply]
  exact Ideal.ofBits_zero_f32

/-! ## The slice of the hidden layer a column block reads -/

/-- The slice starts at row 512·j: the 32-bit product j · 512 does not wrap for j < 16. -/
theorem off1_val (i : grid1.Coords) : k1_off1 i = ![512 * (i 1).val, 0] := k1_off1_eq i

/-- Entry (k, q) of the slice is entry (512·j + k, q) of the hidden-layer array. -/
theorem hsl_apply (i : grid1.Coords) (x1 : Vec Ideal S8192x256 .bf16) (k : Fin 512) (q : Fin 256) :
    hsl (F := Ideal) i x1 (ix2 k q)
      = x1 (ix2 (⟨512 * (i 1).val + k.val, by
          have h1 : (i 1).val < 16 := (i 1).isLt
          have h2 := k.isLt
          omega⟩ : Fin 8192) q) := by
  unfold hsl
  refine congrArg x1 (funext fun a => Fin.ext ?_)
  match a with
  | ⟨0, _⟩ =>
    show k1_off1 i 0 + 1 * k.val = 512 * (i 1).val + k.val
    rw [off1_val]
    show 512 * (i 1).val + 1 * k.val = _
    omega
  | ⟨1, _⟩ =>
    show k1_off1 i 1 + 1 * q.val = q.val
    rw [off1_val]
    show 0 + 1 * q.val = _
    omega

/-! ## The two accumulator updates -/

/-- A [2048, 512] by [512, 256] product into the zero accumulator, at entry (p, q): row p against column q. -/
theorem matmul_512_apply {φ₁ φ₂ : FTy} (lhs : FVec Ideal S2048x512 φ₁) (rhs : FVec Ideal S512x256 φ₂)
    (p : Fin 2048) (q : Fin 256) :
    matmul dot_S2048x512_S512x256_S2048x256_1_0_0_1_n_n none lhs rhs
        (constant (F := Ideal) S2048x256 .f32 0x00000000#32) (ix2 p q)
      = ∑ k : Fin 512, lhs (ix2 p k) * rhs (ix2 k q) :=
  mat_dot_zero (M := 2048) (N := 256) (K := 512) dot_S2048x512_S512x256_S2048x256_1_0_0_1_n_n none rfl rfl
    (fun j c => by
      unfold DotDims.lhsIdx
      rw [dif_neg (show ¬(0 : Fin S2048x512.rank) ∈ dot_S2048x512_S512x256_S2048x256_1_0_0_1_n_n.lhsBatch by decide),
        dif_pos (show (0 : Fin S2048x512.rank) ∈ dot_S2048x512_S512x256_S2048x256_1_0_0_1_n_n.lhsNonContracting by decide)]
      rfl)
    (fun j c => dot_S2048x512_S512x256_S2048x256_1_0_0_1_n_n.lhsIdx_val_of_single rfl j c)
    (fun j c => dot_S2048x512_S512x256_S2048x256_1_0_0_1_n_n.rhsIdx_val_of_single rfl j c)
    (fun j c => by
      unfold DotDims.rhsIdx
      rw [dif_neg (show ¬(1 : Fin S512x256.rank) ∈ dot_S2048x512_S512x256_S2048x256_1_0_0_1_n_n.rhsBatch by decide),
        dif_pos (show (1 : Fin S512x256.rank) ∈ dot_S2048x512_S512x256_S2048x256_1_0_0_1_n_n.rhsNonContracting by decide)]
      rfl)
    lhs rhs p q

/-- The product accumulator after a point, at (p, q): what it held plus row p of the A block against column q of
    the hidden-layer slice. -/
theorem acc0_apply (i : grid1.Coords) (x0 : Vec Ideal S2048x512 .f32) (x1 : Vec Ideal S8192x256 .bf16)
    (s0 : Vec Ideal S2048x256 .f32) (p : Fin 2048) (q : Fin 256) :
    acc0 (F := Ideal) i x0 x1 s0 (ix2 p q)
      = s0 (ix2 p q) + ∑ k : Fin 512, x0 (ix2 p k) * hsl (F := Ideal) i x1 (ix2 k q) := by
  unfold acc0 k1_pay4 k1_pay3
  rw [shapeCast_self, addf_apply, matmul_512_apply]
  simp only [truncf_apply, shapeCast_self]

/-- The row-sum accumulator after a point, at (p, l): what it held plus the sum of row p of the A block, the same
    in every lane l. -/
theorem acc1_apply (x0 : Vec Ideal S2048x512 .f32) (s1 : Vec Ideal S2048x128 .f32) (p : Fin 2048) (l : Fin 128) :
    acc1 (F := Ideal) x0 s1 (ix2 p l) = s1 (ix2 p l) + ∑ k : Fin 512, x0 (ix2 p k) := by
  unfold acc1 k1_pay5 k1_pay3
  rw [shapeCast_self, addf_apply, broadcastTo_a1_ab_apply, shapeCast_self, shapeCast_a_a1_apply]
  refine congrArg (s1 (ix2 p l) + ·) ?_
  refine (multiReduction_add_row (a := 2048) (b := 512) _ 0x00000000#32 reduces_S2048x512_S2048 (.inl rfl) rfl p).trans ?_
  rw [shapeCast_self]

/-! ## The output tile -/

/-- Lane 0 of the row-sum accumulator read as a column. -/
theorem col0_apply (s : Vec Ideal S2048x128 .f32) (p : Fin 2048) (z : Fin 1) :
    col0 (F := Ideal) s (ix2 p z) = s (ix2 p (0 : Fin 128)) := by
  unfold col0
  refine congrArg s (funext fun a => Fin.ext ?_)
  have hz : z.val = 0 := by omega
  match a with
  | ⟨0, _⟩ =>
    show 0 + 1 * p.val = p.val
    omega
  | ⟨1, _⟩ =>
    show 0 + 1 * z.val = 0
    omega

/-- A [2048, 1] column broadcast along 256 columns, at (p, q): the column's entry p. -/
theorem col_bcast_apply {α : Type} (v : S2048x1.Idx → α) (p : Fin 2048) (q : Fin 256) :
    broadcastTo S2048x256 v broadcasts_S2048x1_S2048x256 (ix2 p q) = v (ix2 p (0 : Fin 1)) :=
  broadcastTo_a1_ab_apply v broadcasts_S2048x1_S2048x256 p q

/-- The stored output tile at (p, q), from the two accumulators, the X tile, the two halves of the dense weights and
    the bias row. -/
theorem fin6_apply (s0 : Vec Ideal S2048x256 .f32) (s1 : Vec Ideal S2048x128 .f32) (x2 : Vec Ideal S2048x256 .f32)
    (x3 x4 : Vec Ideal S256x256 .f32) (x5 : Vec Ideal S1x256 .f32) (p : Fin 2048) (q : Fin 256) :
    fin6 (F := Ideal) s0 s1 x2 x3 x4 x5 (ix2 p q)
      = max (((∑ k : Fin 256, x2 (ix2 p k) * x3 (ix2 k q))
              + (∑ k : Fin 256, Ideal.div (s0 (ix2 p k)) (s1 (ix2 p (0 : Fin 128)) + Cert.Spec.eps) * x4 (ix2 k q)))
            + x5 (ix2 (0 : Fin 1) q)) 0 + Cert.Spec.eps := by
  unfold fin6 k1_pay6
  rw [addf_apply, broadcast_apply, maximumf_apply, broadcast_apply, addf_apply, bias_row_apply, shapeCast_self,
    addf_apply, matmul_256_apply, matmul_256_apply]
  simp only [truncf_apply, shapeCast_self, divf_apply, col_bcast_apply, addf_apply, broadcast_apply, col0_apply]
  show max _ (Ideal.ofBits .f32 0x00000000#32) + Ideal.ofBits .f32 0x322BCC77#32 = _
  rw [Ideal.ofBits_zero_f32]
  rfl

end Cert.KernelIdeal.Hand

end
-- ==== Proof.LibBlockSum.lean ====
/-
  A sum along a contraction axis taken block by block.

  A tiled matrix product walks the shared axis in blocks of equal width and keeps a running total that starts at
  zero and adds one block's products per step. Over natural-number positions:

  * `prefixSum B f n` is Σ_{k < n·B} f k, the total over the first n blocks of width B;
  * over no block it is zero (`prefixSum_zero`);
  * one more block adds that block's own sum Σ_{j < B} f (n·B + j) (`prefixSum_succ`);
  * over all the blocks it is the whole sum (`prefixSum_all`);
  * a quantity indexed by the steps of a walk in runs of J — reset to the first block's sum at the first step of a
    run, one more block added at each later step — is, after the step at position `p` of its run, the total over the
    first `p + 1` blocks (`runningTotal`).

  Only commutativity and associativity of addition are used (the statements hold in any commutative additive monoid,
  the extended reals among them), so no term needs to be finite.
-/
import Mathlib.Algebra.BigOperators.Intervals
import Mathlib.Algebra.BigOperators.Fin

open scoped BigOperators

namespace Cert.BlockSum

variable {M : Type*} [AddCommMonoid M]

/-- The total over the first `n` blocks of width `B`. -/
def prefixSum (B : ℕ) (f : ℕ → M) (n : ℕ) : M := ∑ k ∈ Finset.range (n * B), f k

/-- Over no block the total is zero. -/
theorem prefixSum_zero (B : ℕ) (f : ℕ → M) : prefixSum B f 0 = 0 := by
  unfold prefixSum
  rw [Nat.zero_mul, Finset.sum_range_zero]

/-- One more block adds that block's own sum. -/
theorem prefixSum_succ (B : ℕ) (f : ℕ → M) (n : ℕ) :
    prefixSum B f (n + 1) = prefixSum B f n + ∑ j : Fin B, f (n * B + j.val) := by
  unfold prefixSum
  rw [Nat.add_one_mul, Finset.sum_range_add, Finset.sum_range (fun x => f (n * B + x))]

/-- Over all `n` blocks of an axis of length `n · B` the total is the whole sum. -/
theorem prefixSum_all (B n K : ℕ) (hK : n * B = K) (f : ℕ → M) :
    prefixSum B f n = ∑ k : Fin K, f k.val := by
  unfold prefixSum
  rw [hK, Finset.sum_range]

/-- A step that is not the first of a run of `J` lies in the run of the step before it, one position further. -/
theorem succ_in_run (J n : ℕ) (hJ : 0 < J) (h : ¬ (n + 1) % J = 0) :
    (n + 1) / J = n / J ∧ (n + 1) % J = n % J + 1 := by
  have hr : n % J < J := Nat.mod_lt n hJ
  have hn : J * (n / J) + n % J = n := Nat.div_add_mod n J
  have hlt : n % J + 1 < J := by
    refine lt_of_le_of_ne (Nat.succ_le_of_lt hr) fun e => h ?_
    have e2 : n + 1 = J * (n / J + 1) := by rw [Nat.mul_add, Nat.mul_one]; omega
    rw [e2, Nat.mul_mod_right]
  exact (Nat.div_mod_unique hJ).mpr ⟨by omega, hlt⟩

/-- A running total over runs of `J` steps. If `s` at the first step of a run (`n % J = 0`) is zero plus the sum of block 0,
    and at every other step is `s` at the step before plus the sum of block `n % J` — the blocks those of the function
    `f (n / J)` that belongs to the run — then after step `n` it is the total of the first `n % J + 1` blocks. -/
theorem runningTotal {N : ℕ} (J B : ℕ) (hJ : 0 < J) (s : (n : ℕ) → n < N → M) (f : ℕ → ℕ → M)
    (hreset : ∀ (n : ℕ) (hn : n < N), n % J = 0 → s n hn = 0 + ∑ j : Fin B, f (n / J) (n % J * B + j.val))
    (hstep : ∀ (n : ℕ) (hn : n < N), ¬ n % J = 0 →
      s n hn = s (n - 1) (Nat.lt_of_le_of_lt (Nat.sub_le _ _) hn) + ∑ j : Fin B, f (n / J) (n % J * B + j.val)) :
    ∀ (n : ℕ) (hn : n < N), s n hn = prefixSum B (f (n / J)) (n % J + 1) := by
  intro n
  induction n with
  | zero =>
    intro hn
    have h0 : 0 % J = 0 := Nat.zero_mod J
    rw [hreset 0 hn h0, h0, prefixSum_succ, prefixSum_zero]
  | succ n ih =>
    intro hn
    by_cases h0 : (n + 1) % J = 0
    · rw [hreset (n + 1) hn h0, h0, prefixSum_succ, prefixSum_zero]
    · obtain ⟨hdiv, hmod⟩ := succ_in_run J n hJ h0
      have hprev := ih (Nat.lt_of_succ_lt hn)
      have e : s (n + 1 - 1) (Nat.lt_of_le_of_lt (Nat.sub_le _ _) hn) = s n (Nat.lt_of_succ_lt hn) := by
        simp only [Nat.add_sub_cancel]
      rw [hstep (n + 1) hn h0, hmod, hdiv, prefixSum_succ, e, hprev]

end Cert.BlockSum
-- ==== Proof.KerAccum.lean ====
/-
  The accumulation over the 16 column blocks of one row tile, as plain mathematics.

  A row of A has 8192 entries, walked in 16 blocks of 512. A running total starts at zero and adds, at block j, the
  block's own sum Σ_{k < 512} g (512·j + k); after the 16th block it holds the whole sum Σ_{k < 8192} g k. With
  g k = a p k · h k q this is entry (p, q) of the product accumulator, with g k = a p k the row-sum accumulator.

  The grid walks 4 row tiles of 16 column blocks each, 64 points in all; the totals are reset at the first block of
  each tile. A quantity that is zero plus block 0's sum at a tile's first point and the previous point's value plus
  block (n mod 16)'s sum at every other point is, at the tile's last point, the whole sum of the tile's function.

  Only the laws of a commutative additive monoid are used: nothing needs to be finite.
-/
import proofs.«109917_j84868553769261_2_alg».proof.Proof.LibBlockSum
import Mathlib.Data.EReal.Basic

open scoped BigOperators

namespace Cert.Accum

open Cert.BlockSum

variable {M : Type*} [AddCommMonoid M]

/-- A function on the first n natural numbers continued by zero. -/
def ext0 {n : ℕ} (g : Fin n → M) (k : ℕ) : M := if h : k < n then g ⟨k, h⟩ else 0

/-- Below n it is the function. -/
theorem ext0_of_lt {n : ℕ} (g : Fin n → M) (k : ℕ) (h : k < n) : ext0 g k = g ⟨k, h⟩ := dif_pos h

/-- At a position of the axis it is the function there. -/
theorem ext0_val {n : ℕ} (g : Fin n → M) (k : Fin n) : ext0 g k.val = g k := dif_pos k.isLt

/-- The total of g over the first j blocks of 512 of an axis of length 8192. -/
def blockAcc (g : Fin 8192 → M) (j : ℕ) : M := prefixSum 512 (ext0 g) j

/-- Over no block: zero. -/
theorem blockAcc_zero (g : Fin 8192 → M) : blockAcc g 0 = 0 := prefixSum_zero 512 (ext0 g)

/-- One more block adds the block's own sum. -/
theorem blockAcc_succ (g : Fin 8192 → M) (j : ℕ) (hj : j < 16) :
    blockAcc g (j + 1)
      = blockAcc g j + ∑ k : Fin 512, g ⟨512 * j + k.val, by have := k.isLt; omega⟩ := by
  unfold blockAcc
  rw [prefixSum_succ]
  refine congrArg (prefixSum 512 (ext0 g) j + ·) (Finset.sum_congr rfl fun k _ => ?_)
  have hk := k.isLt
  rw [ext0_of_lt g (j * 512 + k.val) (by omega)]
  exact congrArg g (Fin.ext (by show j * 512 + k.val = 512 * j + k.val; omega))

/-- Over all 16 blocks: the whole sum. -/
theorem blockAcc_full (g : Fin 8192 → M) : blockAcc g 16 = ∑ k : Fin 8192, g k := by
  unfold blockAcc
  rw [prefixSum_all 512 16 8192 rfl]
  exact Finset.sum_congr rfl fun k _ => ext0_val g k

/-- The running totals over the grid's points, in runs of 16 column blocks: a quantity s that at the first point of
    a run is zero plus block 0's sum, and at every other point is its value at the point before plus the sum of
    block n mod 16 — the blocks those of the function g (n / 16) of the run — holds, after point n, the total of the
    first n mod 16 + 1 blocks. -/
theorem run_blockAcc {N : ℕ} (s : (n : ℕ) → n < N → M) (g : ℕ → Fin 8192 → M)
    (hreset : ∀ (n : ℕ) (hn : n < N), n % 16 = 0 →
      s n hn = 0 + ∑ k : Fin 512, g (n / 16) ⟨512 * (n % 16) + k.val, by
        have := k.isLt; have := Nat.mod_lt n (show 0 < 16 by omega); omega⟩)
    (hstep : ∀ (n : ℕ) (hn : n < N), ¬ n % 16 = 0 →
      s n hn = s (n - 1) (Nat.lt_of_le_of_lt (Nat.sub_le _ _) hn)
        + ∑ k : Fin 512, g (n / 16) ⟨512 * (n % 16) + k.val, by
          have := k.isLt; have := Nat.mod_lt n (show 0 < 16 by omega); omega⟩) :
    ∀ (n : ℕ) (hn : n < N), s n hn = blockAcc (g (n / 16)) (n % 16 + 1) := by
  have key : ∀ (n : ℕ) (k : Fin 512),
      ext0 (g (n / 16)) (n % 16 * 512 + k.val)
        = g (n / 16) ⟨512 * (n % 16) + k.val, by
            have := k.isLt; have := Nat.mod_lt n (show 0 < 16 by omega); omega⟩ := by
    intro n k
    have hk := k.isLt
    have hm := Nat.mod_lt n (show 0 < 16 by omega)
    rw [ext0_of_lt (g (n / 16)) (n % 16 * 512 + k.val) (by omega)]
    exact congrArg (g (n / 16)) (Fin.ext (by show n % 16 * 512 + k.val = 512 * (n % 16) + k.val; omega))
  intro n hn
  unfold blockAcc
  refine runningTotal 16 512 (by omega) s (fun I => ext0 (g I)) ?_ ?_ n hn
  · intro n hn h0
    rw [hreset n hn h0]
    exact congrArg (0 + ·) (Finset.sum_congr rfl fun k _ => (key n k).symm)
  · intro n hn h0
    rw [hstep n hn h0]
    exact congrArg (s (n - 1) _ + ·) (Finset.sum_congr rfl fun k _ => (key n k).symm)

/-- At the last point of a run the quantity holds the whole sum of the run's function. -/
theorem run_total {N : ℕ} (s : (n : ℕ) → n < N → M) (g : ℕ → Fin 8192 → M)
    (hreset : ∀ (n : ℕ) (hn : n < N), n % 16 = 0 →
      s n hn = 0 + ∑ k : Fin 512, g (n / 16) ⟨512 * (n % 16) + k.val, by
        have := k.isLt; have := Nat.mod_lt n (show 0 < 16 by omega); omega⟩)
    (hstep : ∀ (n : ℕ) (hn : n < N), ¬ n % 16 = 0 →
      s n hn = s (n - 1) (Nat.lt_of_le_of_lt (Nat.sub_le _ _) hn)
        + ∑ k : Fin 512, g (n / 16) ⟨512 * (n % 16) + k.val, by
          have := k.isLt; have := Nat.mod_lt n (show 0 < 16 by omega); omega⟩)
    (n : ℕ) (hn : n < N) (hlast : n % 16 = 15) : s n hn = ∑ k : Fin 8192, g (n / 16) k := by
  rw [run_blockAcc s g hreset hstep n hn, hlast]
  exact blockAcc_full (g (n / 16))

/-! ## The two accumulators of one row tile -/

/-- The product accumulator after the first j column blocks, from zero: entry (p, q). -/
noncomputable def S0 (a : Fin 2048 → Fin 8192 → EReal) (h : Fin 8192 → Fin 256 → EReal) (j : ℕ) (p : Fin 2048) (q : Fin 256) :
    EReal := blockAcc (fun k => a p k * h k q) j

/-- The row-sum accumulator after the first j column blocks, from zero: row p. -/
noncomputable def S1 (a : Fin 2048 → Fin 8192 → EReal) (j : ℕ) (p : Fin 2048) : EReal := blockAcc (a p) j

theorem S0_zero (a : Fin 2048 → Fin 8192 → EReal) (h : Fin 8192 → Fin 256 → EReal) (p : Fin 2048) (q : Fin 256) :
    S0 a h 0 p q = 0 := blockAcc_zero _

theorem S0_succ (a : Fin 2048 → Fin 8192 → EReal) (h : Fin 8192 → Fin 256 → EReal) (j : ℕ) (hj : j < 16)
    (p : Fin 2048) (q : Fin 256) :
    S0 a h (j + 1) p q = S0 a h j p q
      + ∑ k : Fin 512, a p ⟨512 * j + k.val, by have := k.isLt; omega⟩
          * h ⟨512 * j + k.val, by have := k.isLt; omega⟩ q :=
  blockAcc_succ (fun k => a p k * h k q) j hj

theorem S0_full (a : Fin 2048 → Fin 8192 → EReal) (h : Fin 8192 → Fin 256 → EReal) (p : Fin 2048) (q : Fin 256) :
    S0 a h 16 p q = ∑ j : Fin 8192, a p j * h j q := blockAcc_full _

theorem S1_zero (a : Fin 2048 → Fin 8192 → EReal) (p : Fin 2048) : S1 a 0 p = 0 := blockAcc_zero _

theorem S1_succ (a : Fin 2048 → Fin 8192 → EReal) (j : ℕ) (hj : j < 16) (p : Fin 2048) :
    S1 a (j + 1) p = S1 a j p + ∑ k : Fin 512, a p ⟨512 * j + k.val, by have := k.isLt; omega⟩ :=
  blockAcc_succ (a p) j hj

theorem S1_full (a : Fin 2048 → Fin 8192 → EReal) (p : Fin 2048) : S1 a 16 p = ∑ j : Fin 8192, a p j :=
  blockAcc_full _

end Cert.Accum
-- ==== Proof.KerArr.lean ====
/-
  From the tiles to the arrays: what the two regions leave in their output arrays, as the specification's functions
  of the arrays each region finds on entry.

  Region 0 writes tile t (rows 2048·t …) of the hidden-layer array at point t; every input block is the part of its
  array the point's rectangle names — a block's coordinate is (block index) · (block size) + (coordinate inside the
  block) —, so the tile is the hidden layer of the entry arrays there, and the four tiles cover the array.

  Region 1 walks 4 row tiles of 16 column blocks. The two running buffers restart from zero at the first block of a
  tile and add one block's products (row sums) per point, so at the tile's last point they hold the full sums over
  the 8192 columns; the output tile stored there is the dense layer of [X, pooled] of the entry arrays, and the four
  tiles cover the array.
-/
import proofs.«109917_j84868553769261_2_alg».proof.Proof.Data
import proofs.«109917_j84868553769261_2_alg».proof.Proof.KerBlock1
import proofs.«109917_j84868553769261_2_alg».proof.Proof.KerAccum
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0: the hidden-layer array -/

/-- The index maps of region 0's windows over its four points: the X tile and the output tile are tile t, the weights
    and the bias row do not move. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The X tile at point t: rows 2048·t … 2048·t + 2047. -/
theorem iblk0_0_apply (c : Dev nD) (t : Fin cfg0.N) (p : Fin 2048) (k : Fin 256) :
    (iblk0 V c 0 t : Vec Ideal S2048x256 .f32) (ix2 p k)
      = (V c main_v1 : S8192x256.Idx → EReal) (ix2 ⟨2048 * t.val + p.val, by
          have : t.val < 4 := t.isLt
          have := p.isLt
          omega⟩ k) := by
  obtain ⟨e0, e1, -⟩ := idx0 t
  unfold iblk0
  rw [View.read_apply]
  show (V c main_v1 : S8192x256.Idx → EReal) (((cfg0.win 0).blk t).view.emb (ix2 p k)) = _
  refine congrArg (V c main_v1 : S8192x256.Idx → EReal) (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 256 + 1 * k.val = k.val; rw [e1]; omega

/-- The weights' block is the whole matrix. -/
theorem iblk0_1_apply (c : Dev nD) (t : Fin cfg0.N) (k e : Fin 256) :
    (iblk0 V c 1 t : Vec Ideal S256x256 .f32) (ix2 k e) = (V c main_arg2 : S256x256.Idx → EReal) (ix2 k e) := by
  obtain ⟨-, -, e0, e1, -⟩ := idx0 t
  unfold iblk0
  rw [View.read_apply]
  show (V c main_arg2 : S256x256.Idx → EReal) (((cfg0.win 1).blk t).view.emb (ix2 k e)) = _
  refine congrArg (V c main_arg2 : S256x256.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 256 + 1 * e.val = e.val; rw [e1]; omega

/-- The bias row's block is the whole row. -/
theorem iblk0_2_apply (c : Dev nD) (t : Fin cfg0.N) (e : Fin 256) :
    (iblk0 V c 2 t : Vec Ideal S1x256 .f32) (ix2 (0 : Fin 1) e)
      = (V c main_v2 : S1x256.Idx → EReal) (ix2 (0 : Fin 1) e) := by
  obtain ⟨-, -, -, -, e0, e1, -⟩ := idx0 t
  unfold iblk0
  rw [View.read_apply]
  show (V c main_v2 : S1x256.Idx → EReal) (((cfg0.win 2).blk t).view.emb (ix2 (0 : Fin 1) e)) = _
  refine congrArg (V c main_v2 : S1x256.Idx → EReal) (funext fun a => Fin.ext ?_)
  match a with
  | ⟨0, _⟩ => show win0_2.index t (0 : Fin 2) * 1 + 1 * 0 = 0; rw [e0]
  | ⟨1, _⟩ => show win0_2.index t (1 : Fin 2) * 256 + 1 * e.val = e.val; rw [e1]; omega

/-- The hidden layer as an array over [8192, 256]. -/
def hidArr (X : Cert.Spec.SX.Idx → EReal) (Ww : Cert.Spec.SW.Idx → EReal) (bw : Cert.Spec.SB.Idx → EReal) :
    S8192x256.Idx → EReal :=
  fun i => Cert.Spec.hid X Ww bw ⟨(i 0).val, (i 0).isLt⟩ ⟨(i 1).val, (i 1).isLt⟩

/-- What point t writes back is tile t of the hidden layer of the arrays the region finds. -/
theorem flushed0_eq (c : Dev nD) (X : Cert.Spec.SX.Idx → EReal) (Ww : Cert.Spec.SW.Idx → EReal)
    (bw : Cert.Spec.SB.Idx → EReal)
    (hX : ∀ (r : Fin 8192) (k : Fin 256), (V c main_v1 : S8192x256.Idx → EReal) (ix2 r k) = X (ix3 (0 : Fin 1) r k))
    (hW : ∀ k e : Fin 256, (V c main_arg2 : S256x256.Idx → EReal) (ix2 k e) = Ww (ix2 k e))
    (hb : ∀ e : Fin 256, (V c main_v2 : S1x256.Idx → EReal) (ix2 (0 : Fin 1) e) = bw (ix1 e)) (t : Fin cfg0.N) :
    (dat0 V c).flushed 3 t = ((cfg0.win 3).blk t).view.read (Elt Ideal) (hidArr X Ww bw) := by
  obtain ⟨-, -, -, -, -, -, e0, e1⟩ := idx0 t
  show (cfg0.win 3).cut (grid0.coords t) ((dat0 V c).after 3 t) = _
  rw [after0_3]
  funext j
  obtain ⟨p, q, rfl⟩ : ∃ (p : Fin 2048) (q : Fin 256), (j : S2048x256.Idx) = ix2 p q := ⟨j 0, j 1, eq_ix2 _⟩
  rw [View.read_apply]
  have hx : (cfg0.win 3).xinj (grid0.coords t) (ix2 p q) = (ix2 p q : S2048x256.Idx) :=
    funext fun a => Fin.ext (by match a with | ⟨0, _⟩ => rfl | ⟨1, _⟩ => rfl)
  show out0 (iblk0 V c 0 t) (iblk0 V c 1 t) (iblk0 V c 2 t) ((cfg0.win 3).xinj (grid0.coords t) (ix2 p q))
    = hidArr X Ww bw (((cfg0.win 3).blk t).view.emb (ix2 p q))
  rw [hx, out0_apply]
  have ht : t.val < 4 := t.isLt
  have hp := p.isLt
  have hG : hidArr X Ww bw (((cfg0.win 3).blk t).view.emb (ix2 p q))
      = Cert.Spec.hid X Ww bw ⟨2048 * t.val + p.val, by omega⟩ q :=
    congrArg₂ (Cert.Spec.hid X Ww bw)
      (Fin.ext (by show win0_3.index t (0 : Fin 2) * 2048 + 1 * p.val = 2048 * t.val + p.val; rw [e0]; omega))
      (Fin.ext (by show win0_3.index t (1 : Fin 2) * 256 + 1 * q.val = q.val; rw [e1]; omega))
  rw [hG]
  unfold Cert.Spec.hid
  refine congrArg₂ max (congrArg₂ (· + ·) (Finset.sum_congr rfl fun k _ => ?_) ?_) rfl
  · rw [iblk0_0_apply, iblk0_1_apply, hX, hW]
  · rw [iblk0_2_apply, hb]

/-- Every row lies in the tile of the point that is its quotient by 2048. -/
theorem cover0 (i : S8192x256.Idx) :
    ∃ t : Fin cfg0.N, (cfg0.win 3).flush t = true ∧ i ∈ ((cfg0.win 3).blk t).view.set := by
  have h0 : (i 0).val < 8192 := (i 0).isLt
  have h1 : (i 1).val < 256 := (i 1).isLt
  have hN : cfg0.N = 4 := N_0
  have hlt : (i 0).val / 2048 < cfg0.N := by rw [hN]; omega
  obtain ⟨t, ht⟩ : ∃ t : Fin cfg0.N, t.val = (i 0).val / 2048 := ⟨⟨(i 0).val / 2048, hlt⟩, rfl⟩
  refine ⟨t, flush0_3 t, ?_⟩
  obtain ⟨-, -, -, -, -, -, e0, e1⟩ := idx0 t
  show i ∈ ((View.whole main_v6).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e0, ht]
    omega
  | ⟨1, _⟩ =>
    show win0_3.index t (1 : Fin 2) * 256 ≤ (i 1).val ∧ (i 1).val < win0_3.index t (1 : Fin 2) * 256 + 256
    rw [e1]
    omega

/-- After region 0 the hidden-layer array holds the hidden layer of the arrays the region found. -/
theorem arr0_eq (c : Dev nD) (X : Cert.Spec.SX.Idx → EReal) (Ww : Cert.Spec.SW.Idx → EReal)
    (bw : Cert.Spec.SB.Idx → EReal)
    (hX : ∀ (r : Fin 8192) (k : Fin 256), (V c main_v1 : S8192x256.Idx → EReal) (ix2 r k) = X (ix3 (0 : Fin 1) r k))
    (hW : ∀ k e : Fin 256, (V c main_arg2 : S256x256.Idx → EReal) (ix2 k e) = Ww (ix2 k e))
    (hb : ∀ e : Fin 256, (V c main_v2 : S1x256.Idx → EReal) (ix2 (0 : Fin 1) e) = bw (ix1 e)) :
    ∀ (r : Fin 8192) (e : Fin 256),
      ((dat0 V c).arrAt 3 cfg0.N : S8192x256.Idx → EReal) (ix2 r e) = Cert.Spec.hid X Ww bw r e := by
  intro r e
  rw [(dat0 V c).arrAt_eq_of_cover 3 (hidArr X Ww bw) (fun t _ => flushed0_eq V c X Ww bw hX hW hb t) cover0]
  rfl

/-! ## Region 1: the dense layer on [X, pooled] -/

/-- Region 1 has 64 points. -/
theorem lt64 (t : Fin cfg1.N) : t.val < 64 := by
  have h := t.isLt
  have hN : cfg1.N = 64 := N_1
  omega

/-- The index maps of region 1's moving windows over its 64 points, t = 16·i + j: the A block is block (i, j), the X
    tile and the output tile are tile i, the hidden-layer array does not move; the body's column coordinate is j. -/
theorem idx1a : ∀ t : Fin cfg1.N, win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ win1_6.index t (0 : Fin 2) = t.val / 16 ∧ win1_6.index t (1 : Fin 2) = 0
    ∧ ((grid1.coords t) 1).val = t.val % 16 :=
  (by decide +kernel : ∀ t : Fin grid1.N, _)

/-- The two weight halves and the bias row do not move. -/
theorem idx1b : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The A block at point t = 16·i + j: rows 2048·i …, columns 512·j …. -/
theorem iblk1_0_apply (c : Dev nD) (t : Fin cfg1.N) (p : Fin 2048) (k : Fin 512) :
    (iblk1 V c 0 t : Vec Ideal S2048x512 .f32) (ix2 p k)
      = (V c main_v0 : S8192x8192.Idx → EReal)
          (ix2 ⟨2048 * (t.val / 16) + p.val, by have := lt64 t; have := p.isLt; omega⟩
            ⟨512 * (t.val % 16) + k.val, by have := k.isLt; omega⟩) := by
  obtain ⟨e0, e1, -⟩ := idx1a t
  unfold iblk1
  rw [View.read_apply]
  show (V c main_v0 : S8192x8192.Idx → EReal) (((cfg1.win 0).blk t).view.emb (ix2 p k)) = _
  refine congrArg (V c main_v0 : S8192x8192.Idx → EReal) (funext fun a => Fin.ext ?_)
  match a with
  | ⟨0, _⟩ => show win1_0.index t (0 : Fin 2) * 2048 + 1 * p.val = 2048 * (t.val / 16) + p.val; rw [e0]; omega
  | ⟨1, _⟩ => show win1_0.index t (1 : Fin 2) * 512 + 1 * k.val = 512 * (t.val % 16) + k.val; rw [e1]; omega

/-- The hidden-layer array is resident whole. -/
theorem iblk1_1_apply (c : Dev nD) (t : Fin cfg1.N) (r : Fin 8192) (q : Fin 256) :
    (iblk1 V c 1 t : Vec Ideal S8192x256 .bf16) (ix2 r q) = (V c main_v6 : S8192x256.Idx → EReal) (ix2 r q) := by
  obtain ⟨-, -, e0, e1, -⟩ := idx1a t
  unfold iblk1
  rw [View.read_apply]
  show (V c main_v6 : S8192x256.Idx → EReal) (((cfg1.win 1).blk t).view.emb (ix2 r q)) = _
  refine congrArg (V c main_v6 : S8192x256.Idx → EReal) (funext fun a => Fin.ext ?_)
  match a with
  | ⟨0, _⟩ => show win1_1.index t (0 : Fin 2) * 8192 + 1 * r.val = r.val; rw [e0]; omega
  | ⟨1, _⟩ => show win1_1.index t (1 : Fin 2) * 256 + 1 * q.val = q.val; rw [e1]; omega

/-- The X tile at point t = 16·i + j: rows 2048·i …. -/
theorem iblk1_2_apply (c : Dev nD) (t : Fin cfg1.N) (p : Fin 2048) (k : Fin 256) :
    (iblk1 V c 2 t : Vec Ideal S2048x256 .f32) (ix2 p k)
      = (V c main_v1 : S8192x256.Idx → EReal)
          (ix2 ⟨2048 * (t.val / 16) + p.val, by have := lt64 t; have := p.isLt; omega⟩ k) := by
  obtain ⟨-, -, -, -, e0, e1, -⟩ := idx1a t
  unfold iblk1
  rw [View.read_apply]
  show (V c main_v1 : S8192x256.Idx → EReal) (((cfg1.win 2).blk t).view.emb (ix2 p k)) = _
  refine congrArg (V c main_v1 : S8192x256.Idx → EReal) (funext fun a => Fin.ext ?_)
  match a with
  | ⟨0, _⟩ => show win1_2.index t (0 : Fin 2) * 2048 + 1 * p.val = 2048 * (t.val / 16) + p.val; rw [e0]; omega
  | ⟨1, _⟩ => show win1_2.index t (1 : Fin 2) * 256 + 1 * k.val = k.val; rw [e1]; omega

/-- The upper half of the dense weights is resident whole. -/
theorem iblk1_3_apply (c : Dev nD) (t : Fin cfg1.N) (k e : Fin 256) :
    (iblk1 V c 3 t : Vec Ideal S256x256 .f32) (ix2 k e) = (V c main_v4 : S256x256.Idx → EReal) (ix2 k e) := by
  obtain ⟨e0, e1, -⟩ := idx1b t
  unfold iblk1
  rw [View.read_apply]
  show (V c main_v4 : S256x256.Idx → EReal) (((cfg1.win 3).blk t).view.emb (ix2 k e)) = _
  refine congrArg (V c main_v4 : S256x256.Idx → EReal) (funext fun a => Fin.ext ?_)
  match a with
  | ⟨0, _⟩ => show win1_3.index t (0 : Fin 2) * 256 + 1 * k.val = k.val; rw [e0]; omega
  | ⟨1, _⟩ => show win1_3.index t (1 : Fin 2) * 256 + 1 * e.val = e.val; rw [e1]; omega

/-- The lower half of the dense weights is resident whole. -/
theorem iblk1_4_apply (c : Dev nD) (t : Fin cfg1.N) (k e : Fin 256) :
    (iblk1 V c 4 t : Vec Ideal S256x256 .f32) (ix2 k e) = (V c main_v5 : S256x256.Idx → EReal) (ix2 k e) := by
  obtain ⟨-, -, e0, e1, -⟩ := idx1b t
  unfold iblk1
  rw [View.read_apply]
  show (V c main_v5 : S256x256.Idx → EReal) (((cfg1.win 4).blk t).view.emb (ix2 k e)) = _
  refine congrArg (V c main_v5 : S256x256.Idx → EReal) (funext fun a => Fin.ext ?_)
  match a with
  | ⟨0, _⟩ => show win1_4.index t (0 : Fin 2) * 256 + 1 * k.val = k.val; rw [e0]; omega
  | ⟨1, _⟩ => show win1_4.index t (1 : Fin 2) * 256 + 1 * e.val = e.val; rw [e1]; omega

/-- The dense layer's bias row is resident whole. -/
theorem iblk1_5_apply (c : Dev nD) (t : Fin cfg1.N) (e : Fin 256) :
    (iblk1 V c 5 t : Vec Ideal S1x256 .f32) (ix2 (0 : Fin 1) e)
      = (V c main_v3 : S1x256.Idx → EReal) (ix2 (0 : Fin 1) e) := by
  obtain ⟨-, -, -, -, e0, e1⟩ := idx1b t
  unfold iblk1
  rw [View.read_apply]
  show (V c main_v3 : S1x256.Idx → EReal) (((cfg1.win 5).blk t).view.emb (ix2 (0 : Fin 1) e)) = _
  refine congrArg (V c main_v3 : S1x256.Idx → EReal) (funext fun a => Fin.ext ?_)
  match a with
  | ⟨0, _⟩ => show win1_5.index t (0 : Fin 2) * 1 + 1 * 0 = 0; rw [e0]
  | ⟨1, _⟩ => show win1_5.index t (1 : Fin 2) * 256 + 1 * e.val = e.val; rw [e1]; omega

/-- One point's update of the product accumulator at (p, q), over the arrays the region finds. -/
theorem step1_fst_apply (c : Dev nD) (A : Cert.Spec.SA.Idx → EReal) (X : Cert.Spec.SX.Idx → EReal)
    (Ww : Cert.Spec.SW.Idx → EReal) (bw : Cert.Spec.SB.Idx → EReal)
    (hA : ∀ r j : Fin 8192, (V c main_v0 : S8192x8192.Idx → EReal) (ix2 r j) = A (ix3 (0 : Fin 1) r j))
    (hh : ∀ (r : Fin 8192) (e : Fin 256), (V c main_v6 : S8192x256.Idx → EReal) (ix2 r e) = Cert.Spec.hid X Ww bw r e)
    (t : Fin cfg1.N) (s : Vec Ideal S2048x256 .f32 × Vec Ideal S2048x128 .f32) (p : Fin 2048) (q : Fin 256) :
    ((step1 V c t s).1 : Vec Ideal S2048x256 .f32) (ix2 p q)
      = s.1 (ix2 p q) + ∑ k : Fin 512,
          A (ix3 (0 : Fin 1) ⟨2048 * (t.val / 16) + p.val, by have := lt64 t; have := p.isLt; omega⟩
                ⟨512 * (t.val % 16) + k.val, by have := k.isLt; omega⟩)
            * Cert.Spec.hid X Ww bw ⟨512 * (t.val % 16) + k.val, by have := k.isLt; omega⟩ q := by
  obtain ⟨-, -, -, -, -, -, -, -, ej⟩ := idx1a t
  show acc0 (grid1.coords t) (iblk1 V c 0 t) (iblk1 V c 1 t) s.1 (ix2 p q) = _
  rw [acc0_apply]
  refine congrArg (s.1 (ix2 p q) + ·) (Finset.sum_congr rfl fun k _ => ?_)
  rw [hsl_apply, iblk1_0_apply, iblk1_1_apply, hA, hh]
  refine congrArg (_ * ·) (congrArg (fun r : Fin 8192 => Cert.Spec.hid X Ww bw r q) (Fin.ext ?_))
  show 512 * ((grid1.coords t) 1).val + k.val = 512 * (t.val % 16) + k.val
  rw [ej]

/-- One point's update of the row-sum accumulator at (p, l). -/
theorem step1_snd_apply (c : Dev nD) (A : Cert.Spec.SA.Idx → EReal)
    (hA : ∀ r j : Fin 8192, (V c main_v0 : S8192x8192.Idx → EReal) (ix2 r j) = A (ix3 (0 : Fin 1) r j))
    (t : Fin cfg1.N) (s : Vec Ideal S2048x256 .f32 × Vec Ideal S2048x128 .f32) (p : Fin 2048) (l : Fin 128) :
    ((step1 V c t s).2 : Vec Ideal S2048x128 .f32) (ix2 p l)
      = s.2 (ix2 p l) + ∑ k : Fin 512,
          A (ix3 (0 : Fin 1) ⟨2048 * (t.val / 16) + p.val, by have := lt64 t; have := p.isLt; omega⟩
                ⟨512 * (t.val % 16) + k.val, by have := k.isLt; omega⟩) := by
  show acc1 (iblk1 V c 0 t) s.2 (ix2 p l) = _
  rw [acc1_apply]
  refine congrArg (s.2 (ix2 p l) + ·) (Finset.sum_congr rfl fun k _ => ?_)
  rw [iblk1_0_apply, hA]

/-- Row r of A by a natural-number row index, zero outside the array. -/
def rowA (A : Cert.Spec.SA.Idx → EReal) (r : ℕ) (k : Fin 8192) : EReal :=
  if h : r < 8192 then A (ix3 (0 : Fin 1) ⟨r, h⟩ k) else 0

theorem rowA_of_lt (A : Cert.Spec.SA.Idx → EReal) (r : ℕ) (h : r < 8192) (k : Fin 8192) :
    rowA A r k = A (ix3 (0 : Fin 1) ⟨r, h⟩ k) := dif_pos h

/-- At the last column block of a row tile the product accumulator holds the full products of the tile's rows of A
    with the hidden layer. -/
theorem scr1_fst_total (c : Dev nD) (A : Cert.Spec.SA.Idx → EReal) (X : Cert.Spec.SX.Idx → EReal)
    (Ww : Cert.Spec.SW.Idx → EReal) (bw : Cert.Spec.SB.Idx → EReal)
    (hA : ∀ r j : Fin 8192, (V c main_v0 : S8192x8192.Idx → EReal) (ix2 r j) = A (ix3 (0 : Fin 1) r j))
    (hh : ∀ (r : Fin 8192) (e : Fin 256), (V c main_v6 : S8192x256.Idx → EReal) (ix2 r e) = Cert.Spec.hid X Ww bw r e)
    (n : ℕ) (hn : n < cfg1.N) (hlast : n % 16 = 15) (p : Fin 2048) (q : Fin 256) :
    ((scr1 V c n hn).1 : Vec Ideal S2048x256 .f32) (ix2 p q)
      = ∑ k : Fin 8192, A (ix3 (0 : Fin 1) ⟨2048 * (n / 16) + p.val, by
            have h64 : n < 64 := lt64 ⟨n, hn⟩; have := p.isLt; omega⟩ k)
          * Cert.Spec.hid X Ww bw k q := by
  have h64 : n < 64 := lt64 ⟨n, hn⟩
  have hp := p.isLt
  refine (Cert.Accum.run_total (N := cfg1.N)
    (fun n hn => ((scr1 V c n hn).1 : Vec Ideal S2048x256 .f32) (ix2 p q))
    (fun I k => rowA A (2048 * I + p.val) k * Cert.Spec.hid X Ww bw k q) ?_ ?_ n hn hlast).trans
    (Finset.sum_congr rfl fun k _ => by rw [rowA_of_lt A _ (by omega)])
  · intro m hm h0
    have h64m : m < 64 := lt64 ⟨m, hm⟩
    show ((scr1 V c m hm).1 : Vec Ideal S2048x256 .f32) (ix2 p q) = _
    rw [show scr1 V c m hm = step1 V c ⟨m, hm⟩ (k1_pay1 (F := Ideal), k1_pay2 (F := Ideal)) from
      scr1_first V c ⟨m, hm⟩ h0, step1_fst_apply V c A X Ww bw hA hh]
    show k1_pay1 (F := Ideal) (ix2 p q) + _ = _
    rw [pay1_apply]
    refine congrArg (0 + ·) (Finset.sum_congr rfl fun k _ => ?_)
    rw [rowA_of_lt A _ (by omega)]
  · intro m hm h0
    have h64m : m < 64 := lt64 ⟨m, hm⟩
    show ((scr1 V c m hm).1 : Vec Ideal S2048x256 .f32) (ix2 p q) = _
    rw [show scr1 V c m hm = step1 V c ⟨m, hm⟩ (scr1 V c (m - 1) (Nat.lt_of_le_of_lt (Nat.sub_le _ _) hm)) from
      scr1_next V c ⟨m, hm⟩ h0, step1_fst_apply V c A X Ww bw hA hh]
    refine congrArg (_ + ·) (Finset.sum_congr rfl fun k _ => ?_)
    rw [rowA_of_lt A _ (by omega)]

/-- At the last column block of a row tile every lane of the row-sum accumulator holds the tile's rows' sums. -/
theorem scr1_snd_total (c : Dev nD) (A : Cert.Spec.SA.Idx → EReal)
    (hA : ∀ r j : Fin 8192, (V c main_v0 : S8192x8192.Idx → EReal) (ix2 r j) = A (ix3 (0 : Fin 1) r j))
    (n : ℕ) (hn : n < cfg1.N) (hlast : n % 16 = 15) (p : Fin 2048) (l : Fin 128) :
    ((scr1 V c n hn).2 : Vec Ideal S2048x128 .f32) (ix2 p l)
      = ∑ k : Fin 8192, A (ix3 (0 : Fin 1) ⟨2048 * (n / 16) + p.val, by
            have h64 : n < 64 := lt64 ⟨n, hn⟩; have := p.isLt; omega⟩ k) := by
  have h64 : n < 64 := lt64 ⟨n, hn⟩
  have hp := p.isLt
  refine (Cert.Accum.run_total (N := cfg1.N)
    (fun n hn => ((scr1 V c n hn).2 : Vec Ideal S2048x128 .f32) (ix2 p l))
    (fun I k => rowA A (2048 * I + p.val) k) ?_ ?_ n hn hlast).trans
    (Finset.sum_congr rfl fun k _ => by rw [rowA_of_lt A _ (by omega)])
  · intro m hm h0
    have h64m : m < 64 := lt64 ⟨m, hm⟩
    show ((scr1 V c m hm).2 : Vec Ideal S2048x128 .f32) (ix2 p l) = _
    rw [show scr1 V c m hm = step1 V c ⟨m, hm⟩ (k1_pay1 (F := Ideal), k1_pay2 (F := Ideal)) from
      scr1_first V c ⟨m, hm⟩ h0, step1_snd_apply V c A hA]
    show k1_pay2 (F := Ideal) (ix2 p l) + _ = _
    rw [pay2_apply]
    refine congrArg (0 + ·) (Finset.sum_congr rfl fun k _ => ?_)
    rw [rowA_of_lt A _ (by omega)]
  · intro m hm h0
    have h64m : m < 64 := lt64 ⟨m, hm⟩
    show ((scr1 V c m hm).2 : Vec Ideal S2048x128 .f32) (ix2 p l) = _
    rw [show scr1 V c m hm = step1 V c ⟨m, hm⟩ (scr1 V c (m - 1) (Nat.lt_of_le_of_lt (Nat.sub_le _ _) hm)) from
      scr1_next V c ⟨m, hm⟩ h0, step1_snd_apply V c A hA]
    refine congrArg (_ + ·) (Finset.sum_congr rfl fun k _ => ?_)
    rw [rowA_of_lt A _ (by omega)]

/-- The dense layer's result as an array over [8192, 256]. -/
def preArr (A : Cert.Spec.SA.Idx → EReal) (X : Cert.Spec.SX.Idx → EReal) (Ww : Cert.Spec.SW.Idx → EReal)
    (bw : Cert.Spec.SB.Idx → EReal) (Wfc : Cert.Spec.SF.Idx → EReal) (bfc : Cert.Spec.SB.Idx → EReal) :
    S8192x256.Idx → EReal :=
  fun i => Cert.Spec.pre A X Ww bw Wfc bfc ⟨(i 0).val, (i 0).isLt⟩ ⟨(i 1).val, (i 1).isLt⟩

/-- The tile stored at the last column block of row tile i, at (p, q): the dense layer's result at row 2048·i + p. -/
theorem out1_apply (c : Dev nD) (A : Cert.Spec.SA.Idx → EReal) (X : Cert.Spec.SX.Idx → EReal)
    (Ww : Cert.Spec.SW.Idx → EReal) (bw : Cert.Spec.SB.Idx → EReal) (Wfc : Cert.Spec.SF.Idx → EReal)
    (bfc : Cert.Spec.SB.Idx → EReal)
    (hA : ∀ r j : Fin 8192, (V c main_v0 : S8192x8192.Idx → EReal) (ix2 r j) = A (ix3 (0 : Fin 1) r j))
    (hh : ∀ (r : Fin 8192) (e : Fin 256), (V c main_v6 : S8192x256.Idx → EReal) (ix2 r e) = Cert.Spec.hid X Ww bw r e)
    (hX : ∀ (r : Fin 8192) (k : Fin 256), (V c main_v1 : S8192x256.Idx → EReal) (ix2 r k) = X (ix3 (0 : Fin 1) r k))
    (h4 : ∀ k e : Fin 256, (V c main_v4 : S256x256.Idx → EReal) (ix2 k e) = Wfc (ix2 (Cert.Spec.wTop k) e))
    (h5 : ∀ k e : Fin 256, (V c main_v5 : S256x256.Idx → EReal) (ix2 k e) = Wfc (ix2 (Cert.Spec.wBot k) e))
    (h3 : ∀ e : Fin 256, (V c main_v3 : S1x256.Idx → EReal) (ix2 (0 : Fin 1) e) = bfc (ix1 e))
    (t : Fin cfg1.N) (ht : t.val % 16 = 15) (p : Fin 2048) (q : Fin 256) :
    (out1 V c t : Vec Ideal S2048x256 .f32) (ix2 p q)
      = Cert.Spec.pre A X Ww bw Wfc bfc ⟨2048 * (t.val / 16) + p.val, by
          have := lt64 t; have := p.isLt; omega⟩ q := by
  unfold out1
  rw [fin6_apply]
  unfold Cert.Spec.pre Cert.Spec.pooled Cert.Spec.rowsum
  refine congrArg (· + Cert.Spec.eps) (congrArg₂ max (congrArg₂ (· + ·) (congrArg₂ (· + ·)
    (Finset.sum_congr rfl fun k _ => ?_) (Finset.sum_congr rfl fun k _ => ?_)) ?_) rfl)
  · rw [iblk1_2_apply, iblk1_3_apply, hX, h4]
  · rw [scr1_fst_total V c A X Ww bw hA hh t.val t.isLt ht p k, scr1_snd_total V c A hA t.val t.isLt ht p 0,
      iblk1_4_apply, h5]
  · rw [iblk1_5_apply, h3]

/-- What a point that writes back (the last column block of its row tile) writes is its tile of the dense layer's result. -/
theorem flushed1_eq (c : Dev nD) (A : Cert.Spec.SA.Idx → EReal) (X : Cert.Spec.SX.Idx → EReal)
    (Ww : Cert.Spec.SW.Idx → EReal) (bw : Cert.Spec.SB.Idx → EReal) (Wfc : Cert.Spec.SF.Idx → EReal)
    (bfc : Cert.Spec.SB.Idx → EReal)
    (hA : ∀ r j : Fin 8192, (V c main_v0 : S8192x8192.Idx → EReal) (ix2 r j) = A (ix3 (0 : Fin 1) r j))
    (hh : ∀ (r : Fin 8192) (e : Fin 256), (V c main_v6 : S8192x256.Idx → EReal) (ix2 r e) = Cert.Spec.hid X Ww bw r e)
    (hX : ∀ (r : Fin 8192) (k : Fin 256), (V c main_v1 : S8192x256.Idx → EReal) (ix2 r k) = X (ix3 (0 : Fin 1) r k))
    (h4 : ∀ k e : Fin 256, (V c main_v4 : S256x256.Idx → EReal) (ix2 k e) = Wfc (ix2 (Cert.Spec.wTop k) e))
    (h5 : ∀ k e : Fin 256, (V c main_v5 : S256x256.Idx → EReal) (ix2 k e) = Wfc (ix2 (Cert.Spec.wBot k) e))
    (h3 : ∀ e : Fin 256, (V c main_v3 : S1x256.Idx → EReal) (ix2 (0 : Fin 1) e) = bfc (ix1 e))
    (t : Fin cfg1.N) (hf : (cfg1.win 6).flush t = true) :
    (dat1 V c).flushed 6 t = ((cfg1.win 6).blk t).view.read (Elt Ideal) (preArr A X Ww bw Wfc bfc) := by
  have ht : t.val % 16 = 15 := (flush1_6 t).mp hf
  obtain ⟨-, -, -, -, -, -, e0, e1, -⟩ := idx1a t
  show (cfg1.win 6).cut (grid1.coords t) ((dat1 V c).after 6 t) = _
  rw [after1_6]
  funext j
  obtain ⟨p, q, rfl⟩ : ∃ (p : Fin 2048) (q : Fin 256), (j : S2048x256.Idx) = ix2 p q := ⟨j 0, j 1, eq_ix2 _⟩
  rw [View.read_apply]
  have hx : (cfg1.win 6).xinj (grid1.coords t) (ix2 p q) = (ix2 p q : S2048x256.Idx) :=
    funext fun a => Fin.ext (by match a with | ⟨0, _⟩ => rfl | ⟨1, _⟩ => rfl)
  show (out1 V c t : Vec Ideal S2048x256 .f32) ((cfg1.win 6).xinj (grid1.coords t) (ix2 p q))
    = preArr A X Ww bw Wfc bfc (((cfg1.win 6).blk t).view.emb (ix2 p q))
  rw [hx, out1_apply V c A X Ww bw Wfc bfc hA hh hX h4 h5 h3 t ht p q]
  exact congrArg₂ (Cert.Spec.pre A X Ww bw Wfc bfc)
    (Fin.ext (by
      show 2048 * (t.val / 16) + p.val = win1_6.index t (0 : Fin 2) * 2048 + 1 * p.val
      rw [e0]; omega))
    (Fin.ext (by
      show q.val = win1_6.index t (1 : Fin 2) * 256 + 1 * q.val
      rw [e1]; omega))

/-- Every row lies in the tile written back at the last column block of the row tile that is its quotient by 2048. -/
theorem cover1 (i : S8192x256.Idx) :
    ∃ t : Fin cfg1.N, (cfg1.win 6).flush t = true ∧ i ∈ ((cfg1.win 6).blk t).view.set := by
  have h0 : (i 0).val < 8192 := (i 0).isLt
  have h1 : (i 1).val < 256 := (i 1).isLt
  have hN : cfg1.N = 64 := N_1
  have hlt : 16 * ((i 0).val / 2048) + 15 < cfg1.N := by rw [hN]; omega
  obtain ⟨t, ht⟩ : ∃ t : Fin cfg1.N, t.val = 16 * ((i 0).val / 2048) + 15 :=
    ⟨⟨16 * ((i 0).val / 2048) + 15, hlt⟩, rfl⟩
  refine ⟨t, (flush1_6 t).mpr (by rw [ht]; omega), ?_⟩
  obtain ⟨-, -, -, -, -, -, e0, e1, -⟩ := idx1a t
  show i ∈ ((View.whole main_v7).slice (win1_6.rect t)).set
  rw [View.set_slice_whole, Rect.mem_set_unit]
  intro a
  match a with
  | ⟨0, _⟩ =>
    show win1_6.index t (0 : Fin 2) * 2048 ≤ (i 0).val ∧ (i 0).val < win1_6.index t (0 : Fin 2) * 2048 + 2048
    rw [e0, ht]
    omega
  | ⟨1, _⟩ =>
    show win1_6.index t (1 : Fin 2) * 256 ≤ (i 1).val ∧ (i 1).val < win1_6.index t (1 : Fin 2) * 256 + 256
    rw [e1]
    omega

/-- After region 1 the output array holds the dense layer's result of the arrays the region found. -/
theorem arr1_eq (c : Dev nD) (A : Cert.Spec.SA.Idx → EReal) (X : Cert.Spec.SX.Idx → EReal)
    (Ww : Cert.Spec.SW.Idx → EReal) (bw : Cert.Spec.SB.Idx → EReal) (Wfc : Cert.Spec.SF.Idx → EReal)
    (bfc : Cert.Spec.SB.Idx → EReal)
    (hA : ∀ r j : Fin 8192, (V c main_v0 : S8192x8192.Idx → EReal) (ix2 r j) = A (ix3 (0 : Fin 1) r j))
    (hh : ∀ (r : Fin 8192) (e : Fin 256), (V c main_v6 : S8192x256.Idx → EReal) (ix2 r e) = Cert.Spec.hid X Ww bw r e)
    (hX : ∀ (r : Fin 8192) (k : Fin 256), (V c main_v1 : S8192x256.Idx → EReal) (ix2 r k) = X (ix3 (0 : Fin 1) r k))
    (h4 : ∀ k e : Fin 256, (V c main_v4 : S256x256.Idx → EReal) (ix2 k e) = Wfc (ix2 (Cert.Spec.wTop k) e))
    (h5 : ∀ k e : Fin 256, (V c main_v5 : S256x256.Idx → EReal) (ix2 k e) = Wfc (ix2 (Cert.Spec.wBot k) e))
    (h3 : ∀ e : Fin 256, (V c main_v3 : S1x256.Idx → EReal) (ix2 (0 : Fin 1) e) = bfc (ix1 e)) :
    ∀ (r : Fin 8192) (e : Fin 256),
      ((dat1 V c).arrAt 6 cfg1.N : S8192x256.Idx → EReal) (ix2 r e) = Cert.Spec.pre A X Ww bw Wfc bfc r e := by
  intro r e
  rw [(dat1 V c).arrAt_eq_of_cover 6 (preArr A X Ww bw Wfc bfc)
    (fun t hf => flushed1_eq V c A X Ww bw Wfc bfc hA hh hX h4 h5 h3 t hf) cover1]
  rfl

end Cert.KernelIdeal.Hand

end
-- ==== Proof.KerValue.lean ====
/-
  The kernel program's result, as the mathematical function of its launch arguments.

  The result buffer after the last host stretch is the normalisation of region 1's output array. That array is the
  dense layer `pre` of the arrays region 1 finds on entry: the adjacency array, the X array and the dense weights'
  two halves and bias as the first host stretch left them — region 0 touches none of them but X, which it only
  reads — and region 0's output array, which is the hidden layer of the arrays region 0 found. Each of those is a
  launch argument moved without arithmetic (a unit axis dropped or added, a block of rows sliced), so entry by
  entry every array is the specification's function of the launch arguments.
-/
import proofs.«109917_j84868553769261_2_alg».proof.Proof.Entry
import proofs.«109917_j84868553769261_2_alg».proof.Proof.KerArr

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The entry arrays of the two regions, entry by entry, as the launch arguments -/

/-- Region 0 finds the X array as the argument X with its unit axis dropped. -/
theorem V1_v1_apply (c : Dev nD) (r : Fin 8192) (k : Fin 256) :
    (V1 m ρ c main_v1 : S8192x256.Idx → EReal) (ix2 r k) = m ((c : Thread nD τ).loc main_arg1) (ix3 (0 : Fin 1) r k) :=
  (congrFun (W1_v1 m ρ c) (ix2 r k)).trans (reshapeX_apply _ r k)

/-- It finds the hidden layer's weights as launched. -/
theorem V1_arg2_apply (c : Dev nD) (k e : Fin 256) :
    (V1 m ρ c main_arg2 : S256x256.Idx → EReal) (ix2 k e) = m ((c : Thread nD τ).loc main_arg2) (ix2 k e) :=
  congrFun (W1_arg m ρ c main_arg2 (by decide)) (ix2 k e)

/-- It finds the hidden layer's bias as the one row of a [1, 256] array. -/
theorem V1_v2_apply (c : Dev nD) (e : Fin 256) :
    (V1 m ρ c main_v2 : S1x256.Idx → EReal) (ix2 (0 : Fin 1) e) = m ((c : Thread nD τ).loc main_arg3) (ix1 e) :=
  (congrFun (W1_v2 m ρ c) (ix2 (0 : Fin 1) e)).trans (reshapeB_apply _ e)

/-- The result buffer after the run holds the mathematical function of the launch arguments. -/
theorem ker_result (c : Dev nD) :
    W4 (F := Ideal) m ρ c (Proc.devRef .tc main_v14)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [W4_v14]
  refine ktail_spec _ _ _ _ _ _ _ ?_
  rw [W3_v7]
  refine arr1_eq (V2 m ρ) c _ _ _ _ _ _ ?hA ?hh ?hX ?h4 ?h5 ?h3
  case hA =>
    -- the adjacency array: untouched by region 0, the argument A with its unit axis dropped
    intro r j
    exact (congrFun (V2_of_V1 m ρ c main_v0 (by decide)) (ix2 r j)).trans
      ((congrFun (W1_v0 m ρ c) (ix2 r j)).trans (reshapeA_apply _ r j))
  case hh =>
    -- the hidden-layer array: what region 0's write-backs leave, the hidden layer of region 0's entry arrays
    intro r e
    exact (congrFun (V2_v6 m ρ c) (ix2 r e)).trans
      (arr0_eq (V1 m ρ) c _ _ _ (V1_v1_apply m ρ c) (V1_arg2_apply m ρ c) (V1_v2_apply m ρ c) r e)
  case hX =>
    -- the X array: an input of region 0, left as found
    intro r k
    exact (congrFun (V2_v1 m ρ c) (ix2 r k)).trans (V1_v1_apply m ρ c r k)
  case h4 =>
    -- rows 0..255 of the dense weights
    intro k e
    exact (congrFun (V2_of_V1 m ρ c main_v4 (by decide)) (ix2 k e)).trans
      ((congrFun (W1_v4 m ρ c) (ix2 k e)).trans (sliceTop_apply _ k e))
  case h5 =>
    -- rows 256..511 of the dense weights
    intro k e
    exact (congrFun (V2_of_V1 m ρ c main_v5 (by decide)) (ix2 k e)).trans
      ((congrFun (W1_v5 m ρ c) (ix2 k e)).trans (sliceBot_apply _ k e))
  case h3 =>
    -- the dense layer's bias as the one row of a [1, 256] array
    intro e
    exact (congrFun (V2_of_V1 m ρ c main_v3 (by decide)) (ix2 (0 : Fin 1) e)).trans
      ((congrFun (W1_v3 m ρ c) (ix2 (0 : Fin 1) e)).trans (reshapeB_apply _ e))

end Cert.KernelIdeal.Hand

end
-- ==== Proof.lean ====
/-
  The claim: the Pallas kernel program (two pallas_calls: the hidden layer h = relu (X·W_w + b_w) in row tiles; then,
  streaming A once in [2048, 512] blocks, the neighbour pooling (A·h) / (rowsum A + eps) accumulated over the 16
  column blocks of a row tile in two scratch buffers, and at the last block the dense layer
  relu (X·W1 + pooled·W2 + b) + eps; then on the host the global L2 normalisation) against the jnp reference
  (einsum, concatenate, one dense layer, jnp.linalg.norm).

  At the ideal instance both are `Cert.Spec.result` of the arguments (Proof/Spec.lean): a change of float format is
  the identity, a matmul into a zero accumulator is the host's dot_general, the K-blocked accumulation is the whole
  sum taken block by block, the dense layer on the concatenation [X, pooled] is the sum of the two half products,
  and the two total sums of squares run over the same entries. Only commutativity and associativity of + on the
  extended reals are used: the precondition (finite inputs) is never opened.

  The frames (both kernel programs run to the end, fault nowhere, leave their arguments unchanged) come from one run
  of @main as four segments — host operations, region 0, region 1, host operations — written once for any float
  instance (Proof/Run.lean, and its copy for the word-level program under Proof/Bits/): region 1's invariant names
  what the two scratch accumulators hold after every grid point (Proof/Data.lean). The reference's frame is its
  generated run with the result dropped. The ideal pass rewrote nothing, so `preserves` is `True`.
-/
import proofs.«109917_j84868553769261_2_alg».proof.Defs
import proofs.«109917_j84868553769261_2_alg».proof.Proof.Gen.Kernel
import proofs.«109917_j84868553769261_2_alg».proof.Proof.Gen.KernelIdeal
import proofs.«109917_j84868553769261_2_alg».proof.Proof.Gen.ReferenceIdeal
import proofs.«109917_j84868553769261_2_alg».proof.Proof.Gen.Pre_finite_inputs
import proofs.«109917_j84868553769261_2_alg».proof.Proof.Gen.ReferenceIdeal.Read
import proofs.«109917_j84868553769261_2_alg».proof.Proof.Args
import proofs.«109917_j84868553769261_2_alg».proof.Proof.Bits.Args
import proofs.«109917_j84868553769261_2_alg».proof.Proof.RefValue
import proofs.«109917_j84868553769261_2_alg».proof.Proof.KerValue
import Idealize.ShloMosaic.Adequacy
import Idealize.ShloMosaic.Init

noncomputable section

namespace Cert.Proof

open Idealize.ShloMosaic Idealize.ShloMosaic.TcCoe Idealize.SL.Sem

/-- The word-level program runs and leaves its arguments as launched: the four-segment run, each argument read
    back through the folds of buffer contents. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c),
      (h c _ (Cert.Kernel.Hand.mem_uc Cert.Kernel.main_arg5 (by decide))).trans (Cert.Kernel.Hand.W4_main_arg5 m ρ c)⟩)
    (Cert.Kernel.Hand.run_all (F := Bits) m ρ)

/-- The same of the idealized program, at the ideal instance. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩)
    (Cert.KernelIdeal.Hand.run_all (F := Ideal) m ρ)

/-- The reference's frame: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance, from memories agreeing on the arguments, both programs end with `Cert.Spec.result` of the
    arguments in their result buffers: the kernel program's by reading its last buffer contents through the folds
    (`ker_result`), the reference's by its generated run read stage by stage (`ref_result`). -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Hand.mem_uc Cert.KernelIdeal.main_v14 (by decide))).trans (Cert.KernelIdeal.Hand.ker_result m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩)
      (Cert.KernelIdeal.Hand.run_all (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v23_eq, Cert.ReferenceIdeal.RefValue.ref_result,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
